-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S128x128 : Shape := ⟨2, ![128, 128]⟩
abbrev S50000x64 : Shape := ⟨2, ![50000, 64]⟩

abbrev nBuf : Space → Nat
  | .hbm => 91
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000, .f32⟩
  | .hbm, ⟨43, _⟩ => ⟨S50000x1, .f32⟩
  | .hbm, ⟨44, _⟩ => ⟨S256x128, .bf16⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S128x128, .f32⟩
  | .hbm, ⟨68, _⟩ => ⟨S128, .f32⟩
  | .hbm, ⟨69, _⟩ => ⟨S1x128, .f32⟩
  | .hbm, ⟨70, _⟩ => ⟨S128x128, .bf16⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x128, .f32⟩
  | .hbm, ⟨89, _⟩ => ⟨S50000x64, .f32⟩
  | .hbm, ⟨90, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50_0 : Ref sig .tc := ⟨.hbm, 71, rfl⟩
abbrev main_v50_1 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x1, .f32⟩
  | 109 => ⟨S800000x64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000, .f32⟩
  | 116 => ⟨S50000x1, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S50000x64, .f32⟩
  | 124 => ⟨S_, .f32⟩
  | 125 => ⟨S800000, .f32⟩
  | 126 => ⟨S_, .f32⟩
  | 127 => ⟨S50000, .f32⟩
  | _ => ⟨S50000x256, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S800000x1, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S50000, .f32⟩
  | 42 => ⟨S50000x1, .f32⟩
  | 43 => ⟨S50000x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_25 : Ref sig .tc := ⟨.hbm, 153, rfl⟩
abbrev main_v116 : Ref sig .tc := ⟨.hbm, 154, rfl⟩
abbrev main_v117 : Ref sig .tc := ⟨.hbm, 155, rfl⟩
abbrev main_c_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.HostFold.lean ====
/-
  What the kernel program's host operations compute, read off the fold of its seven segments through the launch
  memory. The degree normalisation is computed once, before the first dense region, from the edge words alone: the
  source and target words, the per-edge weight column and the squared inverse root degree are the same operations of
  the edge array as the reference's, and are carried under the reference's names for them. Every later stretch reads
  them unchanged across both regions. Layer 1's pre-activation is the aggregation of the first region's product plus
  its self term; the hidden layer is its clamp from below; layer 2's operands are the two output weights side by side
  and the two biases end to end; the results are the two column halves of layer 2's aggregation plus self term.
-/
import proofs.«105954_j32255204393505_2_alg».proof.Proof.Gen.KernelIdeal.Frame
import proofs.«105954_j32255204393505_2_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-- No operation of a stretch writes the buffer: every operation's result buffer is another reference. -/
macro "unwritten" : tactic =>
  `(tactic| (refine List.forall_iff_forall_mem.mp ?_
             simp only [hostOps0, hostOps1, hostOps1_1, hostOps1_2, hostOps2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## Before the first region -/

theorem W1_v1 : W1 m ρ c (Proc.devRef .tc main_v1) = val_main_v1 (F := F) (m ((c : Thread nD τ).loc main_arg1)) := by
  show StableHlo.after hostOps0 (W0 m ρ c) (Proc.devRef .tc main_v1) = _
  after_results_simp <;> rfl

theorem W1_v3 : W1 m ρ c (Proc.devRef .tc main_v3) = val_main_v3 (F := F) (m ((c : Thread nD τ).loc main_arg1)) := by
  show StableHlo.after hostOps0 (W0 m ρ c) (Proc.devRef .tc main_v3) = _
  after_results_simp <;> rfl

/-- The per-edge weight, as a column. -/
theorem W1_v26 : W1 m ρ c (Proc.devRef .tc main_v26) = val_main_v34 (F := F) (m ((c : Thread nD τ).loc main_arg1)) := by
  show StableHlo.after hostOps0 (W0 m ρ c) (Proc.devRef .tc main_v26) = _
  after_results_simp <;> rfl

/-- The squared inverse root degree, as a column. -/
theorem W1_v28 : W1 m ρ c (Proc.devRef .tc main_v28)
    = shapeCast S50000x1 (val_main_v40 (F := F) (m ((c : Thread nD τ).loc main_arg1))) shapeCasts_S50000_S50000x1 := by
  show StableHlo.after hostOps0 (W0 m ρ c) (Proc.devRef .tc main_v28) = _
  after_results_simp <;> rfl

theorem W1_v29 : W1 m ρ c (Proc.devRef .tc main_v29)
    = truncf .bf16 (m ((c : Thread nD τ).loc main_arg2)) bitsLt_bf16_f32 := by
  show StableHlo.after hostOps0 (W0 m ρ c) (Proc.devRef .tc main_v29) = _
  after_results_simp <;> rfl

theorem W1_v30 : W1 m ρ c (Proc.devRef .tc main_v30)
    = shapeCast S1x128 (m ((c : Thread nD τ).loc main_arg3)) shapeCasts_S128_S1x128 := by
  show StableHlo.after hostOps0 (W0 m ρ c) (Proc.devRef .tc main_v30) = _
  after_results_simp <;> rfl

theorem W1_arg0 : W1 m ρ c (Proc.devRef .tc main_arg0) = m ((c : Thread nD τ).loc main_arg0) :=
  StableHlo.after_of_forall_not_mem (b := Proc.devRef .tc main_arg0) _ _ (by unwritten)

/-! ## Across the first region -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v26 : W2 m ρ c (Proc.devRef .tc main_v26) = W1 m ρ c (Proc.devRef .tc main_v26) := W2_of_ne m ρ c main_v26 (by decide)

/-- Layer 1's pre-activation: the aggregation of the first region's product over the edges, plus the region's self term. -/
theorem W3_v44 : W3 m ρ c (Proc.devRef .tc main_v44)
    = addf (Host.scatterAdd scatter_S50000x128_S800000x1_S800000x128_1_0_0_1 (val_main_v37 (F := F))
          (val_main_v38 (F := F) (m ((c : Thread nD τ).loc main_arg1)))
          (mulf (Host.gather gather_S50000x128_S800000x1_S800000x128_1_0_n_n_0_1_1128 ((dat0 (V1 m ρ) c).arrAt 4 cfg0.N)
              (val_main_v32 (F := F) (m ((c : Thread nD τ).loc main_arg1))))
            (val_main_v35 (F := F) (m ((c : Thread nD τ).loc main_arg1)))))
        ((dat0 (V1 m ρ) c).arrAt 5 cfg0.N) := by
  show StableHlo.after hostOps1 (W2 m ρ c) (Proc.devRef .tc main_v44) = _
  after_results_simp
  rw [W2_v1, W2_v3, W2_v26, W1_v1, W1_v3, W1_v26]
  rw [show W2 m ρ c (Proc.devRef .tc main_v31_0) = (dat0 (V1 m ρ) c).arrAt 4 cfg0.N from W2_arr m ρ c 4,
    show W2 m ρ c (Proc.devRef .tc main_v31_1) = (dat0 (V1 m ρ) c).arrAt 5 cfg0.N from W2_arr m ρ c 5]
  rfl

/-! ## The hidden layer and layer 2's operands -/

/-- The hidden layer: the pre-activation clamped from below. -/
theorem clamp_of (V : Valuation τ sig (Elt F)) : StableHlo.after hostOps1_1 V (Proc.devRef .tc main_v45)
    = maximumf (V (Proc.devRef .tc main_v44)) (val_main_call0_v0 (F := F)) := by
  after_results_simp <;> rfl

theorem W4_v45 : W4 m ρ c (Proc.devRef .tc main_v45)
    = maximumf (W3 m ρ c (Proc.devRef .tc main_v44)) (val_main_call0_v0 (F := F)) :=
  clamp_of (W3 m ρ c)

theorem W5_v45 : W5 m ρ c (Proc.devRef .tc main_v45) = W4 m ρ c (Proc.devRef .tc main_v45) :=
  StableHlo.after_of_forall_not_mem (b := Proc.devRef .tc main_v45) _ _ (by unwritten)

/-- A buffer that neither the first three stretches nor the first region write holds its launch contents when the
    fused weights are formed. -/
theorem W4_of_launch (b : Ref sig .tc)
    (h0 : ∀ op ∈ (hostOps0 : List (HloOp τ sig (Elt F))), Proc.devRef .tc b ∉ op.writes)
    (hr : ∀ w, Pipeline.arrRef spec0 w ≠ b)
    (h1 : ∀ op ∈ (hostOps1 : List (HloOp τ sig (Elt F))), Proc.devRef .tc b ∉ op.writes)
    (h11 : ∀ op ∈ (hostOps1_1 : List (HloOp τ sig (Elt F))), Proc.devRef .tc b ∉ op.writes) :
    W4 m ρ c (Proc.devRef .tc b) = m ((c : Thread nD τ).loc b) :=
  (StableHlo.after_of_forall_not_mem (b := Proc.devRef .tc b) hostOps1_1 (W3 m ρ c) h11).trans
    ((StableHlo.after_of_forall_not_mem (b := Proc.devRef .tc b) hostOps1 (W2 m ρ c) h1).trans
      ((W2_of_ne m ρ c b hr).trans
        ((StableHlo.after_of_forall_not_mem (b := Proc.devRef .tc b) hostOps0 (W0 m ρ c) h0).trans rfl)))

theorem W4_arg4 : W4 m ρ c (Proc.devRef .tc main_arg4) = m ((c : Thread nD τ).loc main_arg4) :=
  W4_of_launch m ρ c main_arg4 (by unwritten) (by decide) (by unwritten) (by unwritten)
theorem W4_arg5 : W4 m ρ c (Proc.devRef .tc main_arg5) = m ((c : Thread nD τ).loc main_arg5) :=
  W4_of_launch m ρ c main_arg5 (by unwritten) (by decide) (by unwritten) (by unwritten)
theorem W4_arg6 : W4 m ρ c (Proc.devRef .tc main_arg6) = m ((c : Thread nD τ).loc main_arg6) :=
  W4_of_launch m ρ c main_arg6 (by unwritten) (by decide) (by unwritten) (by unwritten)
theorem W4_arg7 : W4 m ρ c (Proc.devRef .tc main_arg7) = m ((c : Thread nD τ).loc main_arg7) :=
  W4_of_launch m ρ c main_arg7 (by unwritten) (by decide) (by unwritten) (by unwritten)

theorem weights_of (V : Valuation τ sig (Elt F)) : StableHlo.after hostOps1_2 V (Proc.devRef .tc main_v49)
    = truncf .bf16 (concatenate S128x128 1 [⟨S128x64, V (Proc.devRef .tc main_arg4)⟩, ⟨S128x64, V (Proc.devRef .tc main_arg6)⟩]
        concatenates_S128x64_S128x64_S128x128_d1) bitsLt_bf16_f32 := by
  after_results_simp <;> rfl

theorem biases_of (V : Valuation τ sig (Elt F)) : StableHlo.after hostOps1_2 V (Proc.devRef .tc main_v48)
    = shapeCast S1x128 (concatenate S128 0 [⟨S64, V (Proc.devRef .tc main_arg5)⟩, ⟨S64, V (Proc.devRef .tc main_arg7)⟩]
        concatenates_S64_S64_S128_d0) shapeCasts_S128_S1x128 := by
  after_results_simp <;> rfl

/-- Layer 2's weight: the two output weights side by side. -/
theorem W5_v49 : W5 m ρ c (Proc.devRef .tc main_v49)
    = truncf .bf16 (concatenate S128x128 1 [⟨S128x64, m ((c : Thread nD τ).loc main_arg4)⟩, ⟨S128x64, m ((c : Thread nD τ).loc main_arg6)⟩]
        concatenates_S128x64_S128x64_S128x128_d1) bitsLt_bf16_f32 := by
  refine (weights_of (W4 m ρ c)).trans ?_
  rw [W4_arg4, W4_arg6]

/-- Layer 2's bias: the two output biases end to end, as a row. -/
theorem W5_v48 : W5 m ρ c (Proc.devRef .tc main_v48)
    = shapeCast S1x128 (concatenate S128 0 [⟨S64, m ((c : Thread nD τ).loc main_arg5)⟩, ⟨S64, m ((c : Thread nD τ).loc main_arg7)⟩]
        concatenates_S64_S64_S128_d0) shapeCasts_S128_S1x128 := by
  refine (biases_of (W4 m ρ c)).trans ?_
  rw [W4_arg5, W4_arg7]

/-- A buffer written before the first region and by nothing after it, and no array of either region, is read
    unchanged up to the second region's entry and exit. -/
theorem W5_of_W2 (b : Ref sig .tc)
    (h1 : ∀ op ∈ (hostOps1 : List (HloOp τ sig (Elt F))), Proc.devRef .tc b ∉ op.writes)
    (h11 : ∀ op ∈ (hostOps1_1 : List (HloOp τ sig (Elt F))), Proc.devRef .tc b ∉ op.writes)
    (h12 : ∀ op ∈ (hostOps1_2 : List (HloOp τ sig (Elt F))), Proc.devRef .tc b ∉ op.writes) :
    W5 m ρ c (Proc.devRef .tc b) = W2 m ρ c (Proc.devRef .tc b) :=
  (StableHlo.after_of_forall_not_mem (b := Proc.devRef .tc b) hostOps1_2 (W4 m ρ c) h12).trans
    ((StableHlo.after_of_forall_not_mem (b := Proc.devRef .tc b) hostOps1_1 (W3 m ρ c) h11).trans
      (StableHlo.after_of_forall_not_mem (b := Proc.devRef .tc b) hostOps1 (W2 m ρ c) h1))

/-- The squared inverse root degree column is an INPUT of the first region: the region leaves it as entered. -/
theorem W2_v28 : W2 m ρ c (Proc.devRef .tc main_v28) = W1 m ρ c (Proc.devRef .tc main_v28) :=
  (W2_arr m ρ c 2).trans (((dat0 (V1 m ρ) c).arrAt_in 2 rfl _).trans (A_eq0 (V1 m ρ) c 2))

theorem W5_v28 : W5 m ρ c (Proc.devRef .tc main_v28) = W1 m ρ c (Proc.devRef .tc main_v28) :=
  (W5_of_W2 m ρ c main_v28 (by unwritten) (by unwritten) (by unwritten)).trans (W2_v28 m ρ c)

theorem W6_v1 : W6 m ρ c (Proc.devRef .tc main_v1) = W1 m ρ c (Proc.devRef .tc main_v1) :=
  (W6_of_ne m ρ c main_v1 (by decide)).trans ((W5_of_W2 m ρ c main_v1 (by unwritten) (by unwritten) (by unwritten)).trans (W2_v1 m ρ c))
theorem W6_v3 : W6 m ρ c (Proc.devRef .tc main_v3) = W1 m ρ c (Proc.devRef .tc main_v3) :=
  (W6_of_ne m ρ c main_v3 (by decide)).trans ((W5_of_W2 m ρ c main_v3 (by unwritten) (by unwritten) (by unwritten)).trans (W2_v3 m ρ c))
theorem W6_v26 : W6 m ρ c (Proc.devRef .tc main_v26) = W1 m ρ c (Proc.devRef .tc main_v26) :=
  (W6_of_ne m ρ c main_v26 (by decide)).trans ((W5_of_W2 m ρ c main_v26 (by unwritten) (by unwritten) (by unwritten)).trans (W2_v26 m ρ c))

/-! ## After the second region -/

/-- Layer 2's aggregation of the second region's product plus its self term, before the column split. -/
def layer2 : FVec F S50000x128 .f32 :=
  addf (Host.scatterAdd scatter_S50000x128_S800000x1_S800000x128_1_0_0_1 (val_main_v37 (F := F))
        (val_main_v38 (F := F) (m ((c : Thread nD τ).loc main_arg1)))
        (mulf (Host.gather gather_S50000x128_S800000x1_S800000x128_1_0_n_n_0_1_1128 ((dat1 (V5 m ρ) c).arrAt 4 cfg1.N)
            (val_main_v32 (F := F) (m ((c : Thread nD τ).loc main_arg1))))
          (val_main_v35 (F := F) (m ((c : Thread nD τ).loc main_arg1)))))
      ((dat1 (V5 m ρ) c).arrAt 5 cfg1.N)

theorem W7_v63 : W7 m ρ c (Proc.devRef .tc main_v63) = layer2 m ρ c := by
  show StableHlo.after hostOps2 (W6 m ρ c) (Proc.devRef .tc main_v63) = _
  after_results_simp
  rw [W6_v1, W6_v3, W6_v26, W1_v1, W1_v3, W1_v26]
  rw [show W6 m ρ c (Proc.devRef .tc main_v50_0) = (dat1 (V5 m ρ) c).arrAt 4 cfg1.N from W6_arr m ρ c 4,
    show W6 m ρ c (Proc.devRef .tc main_v50_1) = (dat1 (V5 m ρ) c).arrAt 5 cfg1.N from W6_arr m ρ c 5]
  rfl

/-- The first result: the left column half. -/
theorem W7_v64 : W7 m ρ c (Proc.devRef .tc main_v64)
    = extractStridedSlice S50000x64 ![0, 0] (layer2 m ρ c) slices_S50000x128_S50000x64_0_0 := by
  rw [← W7_v63]
  show StableHlo.after hostOps2 (W6 m ρ c) (Proc.devRef .tc main_v64) = extractStridedSlice S50000x64 ![0, 0] (StableHlo.after hostOps2 (W6 m ρ c) (Proc.devRef .tc main_v63)) _
  after_results_simp <;> rfl

/-- The second result: the right column half. -/
theorem W7_v65 : W7 m ρ c (Proc.devRef .tc main_v65)
    = extractStridedSlice S50000x64 ![0, 64] (layer2 m ρ c) slices_S50000x128_S50000x64_0_64 := by
  rw [← W7_v63]
  show StableHlo.after hostOps2 (W6 m ρ c) (Proc.devRef .tc main_v65) = extractStridedSlice S50000x64 ![0, 64] (StableHlo.after hostOps2 (W6 m ρ c) (Proc.devRef .tc main_v63)) _
  after_results_simp <;> rfl

end Cert.KernelIdeal.Fold

end
-- ==== Proof.LibPlainDot.lean ====
/-
  GENERAL LEMMAS: a plain matrix product and a column broadcast, read at an index.

  * A plain matrix product [M, K] · [K, N] read at (p, q) is Σₖ l(p, k) · r(k, q): the contraction index of the
    dimension numbers is its one coordinate. Stated for ANY dimension-number record between such shapes whose operand
    indices are the plain ones, given as four hypotheses about coordinates (each is two lines for a printed record:
    the two contracted coordinates by the single-contracting-axis lemmas, the two free ones by unfolding the index).
  * A column [a, 1] broadcast along the second axis reads, at (p, c), the column's entry of row p.
-/
import Idealize.ShloMosaic.Lib.ValueIdx
import Idealize.ShloMosaic.Lib.Pipeline.Value
import Idealize.ShloMosaic.PureOps.Ideal.Laws

noncomputable section

namespace Cert.Pooling

open Idealize.ShloMosaic Idealize.ShloMosaic.ValueIdx

/-- A plain product's contraction sum at (p, q), re-indexed by the contracted coordinate. -/
theorem sum_contr_plain {M K N : ℕ} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pooling

end
-- ==== Proof.DenseBlocks0.lean ====
/-
  Region 0 of the program: a row-blocked dense layer, read index by index at the ideal values.

  The pipeline walks the 256-column left operand in ten row blocks of 5000 rows; at each block the body multiplies the
  block by the whole [256, 128] weight (the cast of the left operand to the narrower format is the identity on the
  ideal values and the product is the exact sum of products), writes the product to the first result, and writes the
  product scaled row by row by a [5000, 1] column and shifted lane by lane by a [1, 128] row to the second result.
  Here: the body's two stored values at an index of the block (`pay0_prod_apply`, `pay0_self_apply`); each
  input block at an index as the array it is staged from at the row `5000 t + p` (`blk0_lhs_apply` …); what a grid
  point writes back as its block of ONE function of the arrays (`flushed0_prod`, `flushed0_self`); the ten blocks
  cover the 50000 rows (`cover0_prod`, `cover0_self`); so both result arrays after the run, at every index
  (`region0_prod`, `region0_self`).
-/
import proofs.«105954_j32255204393505_2_alg».proof.Proof.Gen.KernelIdeal.Frame
import proofs.«105954_j32255204393505_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Dense

open Cert.KernelIdeal Idealize.ShloMosaic Idealize.ShloMosaic.TcCoe Idealize.SL.Sem
open Idealize.ShloMosaic.ValueIdx
open Idealize.ShloMosaic.Pipeline (Dat)

/-! ## The product's operand indices: a plain [5000, 256] · [256, 128] contraction -/

/-- The left operand's row coordinate is the result's row. -/
theorem dot0_lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- The left operand's column coordinate is the contracted one. -/
theorem dot0_lhs_contr (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the contracted one. -/
theorem dot0_rhs_contr (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the result's column. -/
theorem dot0_rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-! ## The body's two stored values at an index of the block -/

/-- The product stored to the first result: at `(p, q)`, the sum over the 256 contracted coordinates of the left block's
    row `p` times the weight's column `q`. -/
theorem pay0_prod_apply (x0 : Vec Ideal S5000x256 .f32) (x1 : Vec Ideal S256x128 .bf16) (p : Fin 5000) (q : Fin 128) :
    Gen.k0_pay1 (F := Ideal) x0 x1 (ix2 p q) = ∑ k : Fin 256, x0 (ix2 p k) * x1 (ix2 k q) := by
  unfold Gen.k0_pay1
  show FloatOps.matmul (F := Ideal) dot_S5000x256_S256x128_S5000x128_1_0_0_1_n_n none
      (truncf (F := Ideal) .bf16 x0 _) (shapeCast S256x128 x1 _)
      (constant (F := Ideal) S5000x128 .f32 0x00000000#32) (ix2 p q) = _
  rw [shapeCast_self]
  refine (Ideal.matmul_constant_zero_apply (φ₁ := .bf16) (φ₂ := .bf16) dot_S5000x256_S256x128_S5000x128_1_0_0_1_n_n none
    (truncf (F := Ideal) .bf16 x0 _) x1 (ix2 p q)).trans ?_
  exact Cert.Pooling.sum_contr_plain dot_S5000x256_S256x128_S5000x128_1_0_0_1_n_n rfl rfl
    dot0_lhs_row dot0_lhs_contr dot0_rhs_contr dot0_rhs_col _ _ p q

/-- The value stored to the second result: the product at `(p, q)` times the column's entry of row `p`, plus the
    row's entry of lane `q`. -/
theorem pay0_self_apply (x0 : Vec Ideal S5000x256 .f32) (x1 : Vec Ideal S256x128 .bf16) (x2 : Vec Ideal S5000x1 .f32)
    (x3 : Vec Ideal S1x128 .f32) (p : Fin 5000) (q : Fin 128) :
    Gen.k0_pay2 (F := Ideal) x0 x1 x2 x3 (ix2 p q)
      = (∑ k : Fin 256, x0 (ix2 p k) * x1 (ix2 k q)) * x2 (ix2 p (0 : Fin 1)) + x3 (ix2 (0 : Fin 1) q) := by
  unfold Gen.k0_pay2
  show Gen.k0_pay1 (F := Ideal) x0 x1 (ix2 p q)
        * broadcastTo S5000x128 (shapeCast S5000x1 x2 _) _ (ix2 p q)
      + broadcastTo S5000x128 (shapeCast S1x128 x3 _) _ (ix2 p q) = _
  rw [shapeCast_self, shapeCast_self, pay0_prod_apply, Cert.Pooling.broadcastTo_a1_ab_apply, broadcastTo_1b_ab_apply]

/-! ## The arrays' closed forms -/

/-- The first result as one function of the two arrays the product reads. -/
def prodArr0 (a : S50000x256.Idx → EReal) (b : S256x128.Idx → EReal) : S50000x128.Idx → EReal := fun i =>
  ∑ k : Fin 256, a (ix2 (⟨(i 0).val, idx2_lt0 i⟩ : Fin 50000) k) * b (ix2 k (⟨(i 1).val, idx2_lt1 i⟩ : Fin 128))

/-- The second result as one function of the four arrays the body reads. -/
def selfArr0 (a : S50000x256.Idx → EReal) (b : S256x128.Idx → EReal) (d : S50000x1.Idx → EReal) (e : S1x128.Idx → EReal) :
    S50000x128.Idx → EReal := fun i =>
  (∑ k : Fin 256, a (ix2 (⟨(i 0).val, idx2_lt0 i⟩ : Fin 50000) k) * b (ix2 k (⟨(i 1).val, idx2_lt1 i⟩ : Fin 128)))
      * d (ix2 (⟨(i 0).val, idx2_lt0 i⟩ : Fin 50000) (0 : Fin 1))
    + e (ix2 (0 : Fin 1) (⟨(i 1).val, idx2_lt1 i⟩ : Fin 128))

/-- The product array at an index whose coordinates are `n` and `j`. -/
theorem prodArr0_apply (a : S50000x256.Idx → EReal) (b : S256x128.Idx → EReal) (i : S50000x128.Idx) (n : Fin 50000) (j : Fin 128)
    (h0 : (i 0).val = n.val) (h1 : (i 1).val = j.val) :
    prodArr0 a b i = ∑ k : Fin 256, a (ix2 n k) * b (ix2 k j) := by
  have e0 : (⟨(i 0).val, idx2_lt0 i⟩ : Fin 50000) = n := Fin.ext h0
  have e1 : (⟨(i 1).val, idx2_lt1 i⟩ : Fin 128) = j := Fin.ext h1
  unfold prodArr0
  rw [e0, e1]

/-- The scaled and shifted product array at an index whose coordinates are `n` and `j`. -/
theorem selfArr0_apply (a : S50000x256.Idx → EReal) (b : S256x128.Idx → EReal) (d : S50000x1.Idx → EReal) (e : S1x128.Idx → EReal)
    (i : S50000x128.Idx) (n : Fin 50000) (j : Fin 128) (h0 : (i 0).val = n.val) (h1 : (i 1).val = j.val) :
    selfArr0 a b d e i
      = (∑ k : Fin 256, a (ix2 n k) * b (ix2 k j)) * d (ix2 n (0 : Fin 1)) + e (ix2 (0 : Fin 1) j) := by
  have e0 : (⟨(i 0).val, idx2_lt0 i⟩ : Fin 50000) = n := Fin.ext h0
  have e1 : (⟨(i 1).val, idx2_lt1 i⟩ : Fin 128) = j := Fin.ext h1
  unfold selfArr0
  rw [e0, e1]

variable (V : (c : Dev nD) → (b : Ref sig .tc) → Buf (Elt Ideal) ((c : Thread nD τ).loc b))

/-! ## The windows' blocks as rows of their arrays -/

/-- The bodies' loads and stores are at zero offsets. -/
theorem offsets_zero0 : (![0, 0] : Fin 2 → Nat) = fun _ => 0 := funext fun a => by fin_cases a <;> rfl

/-- The printed index maps, decided over the ten grid points: the three row-blocked windows and the two results are
    at row block `t`, column block 0; the weight and the bias row are whole. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of the left operand's block at point `t` is row `5000 t + p` of its array. -/
theorem blk0_lhs_apply (c : Dev nD) (t : Fin cfg0.N) (p : Fin 5000) (k : Fin 256) (n : Fin 50000)
    (hn : n.val = t.val * 5000 + p.val) :
    (Gen.iblk0 (F := Ideal) V c 0 t : S5000x256.Idx → EReal) (ix2 p k) = (V c main_arg0 : S50000x256.Idx → EReal) (ix2 n k) := by
  obtain ⟨e0, e1, -⟩ := index_facts0 t
  unfold Gen.iblk0
  rw [View.read_apply]
  show (V c main_arg0 : S50000x256.Idx → EReal) (((cfg0.win 0).blk t).view.emb (ix2 p k)) = _
  refine congrArg (V c main_arg0 : S50000x256.Idx → EReal) (funext fun a => Fin.ext ?_)
  match a with
  | ⟨0, _⟩ => show win0_0.index t (0 : Fin 2) * 5000 + 1 * p.val = n.val; omega
  | ⟨1, _⟩ => show win0_0.index t (1 : Fin 2) * 256 + 1 * k.val = k.val; omega

/-- The weight's block at every point is the whole weight. -/
theorem blk0_rhs_apply (c : Dev nD) (t : Fin cfg0.N) (k : Fin 256) (q : Fin 128) :
    (Gen.iblk0 (F := Ideal) V c 1 t : S256x128.Idx → EReal) (ix2 k q) = (V c main_v29 : S256x128.Idx → EReal) (ix2 k q) := by
  obtain ⟨-, -, e0, e1, -⟩ := index_facts0 t
  unfold Gen.iblk0
  rw [View.read_apply]
  show (V c main_v29 : S256x128.Idx → EReal) (((cfg0.win 1).blk t).view.emb (ix2 k q)) = _
  refine congrArg (V c main_v29 : S256x128.Idx → EReal) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- Row `p` of the column's block at point `t` is row `5000 t + p` of the column. -/
theorem blk0_col_apply (c : Dev nD) (t : Fin cfg0.N) (p : Fin 5000) (u : Fin 1) (n : Fin 50000)
    (hn : n.val = t.val * 5000 + p.val) :
    (Gen.iblk0 (F := Ideal) V c 2 t : S5000x1.Idx → EReal) (ix2 p u) = (V c main_v28 : S50000x1.Idx → EReal) (ix2 n u) := by
  obtain ⟨-, -, -, -, e0, e1, -⟩ := index_facts0 t
  unfold Gen.iblk0
  rw [View.read_apply]
  show (V c main_v28 : S50000x1.Idx → EReal) (((cfg0.win 2).blk t).view.emb (ix2 p u)) = _
  refine congrArg (V c main_v28 : S50000x1.Idx → EReal) (funext fun a => Fin.ext ?_)
  match a with
  | ⟨0, _⟩ => show win0_2.index t (0 : Fin 2) * 5000 + 1 * p.val = n.val; omega
  | ⟨1, _⟩ => show win0_2.index t (1 : Fin 2) * 1 + 1 * u.val = u.val; omega

/-- The bias row's block at every point is the whole row. -/
theorem blk0_row_apply (c : Dev nD) (t : Fin cfg0.N) (u : Fin 1) (q : Fin 128) :
    (Gen.iblk0 (F := Ideal) V c 3 t : S1x128.Idx → EReal) (ix2 u q) = (V c main_v30 : S1x128.Idx → EReal) (ix2 u q) := by
  obtain ⟨-, -, -, -, -, -, e0, e1, -⟩ := index_facts0 t
  unfold Gen.iblk0
  rw [View.read_apply]
  show (V c main_v30 : S1x128.Idx → EReal) (((cfg0.win 3).blk t).view.emb (ix2 u q)) = _
  refine congrArg (V c main_v30 : S1x128.Idx → EReal) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

/-! ## What a grid point writes back -/

/-- Point `t` writes, to the first result, block `t` of the product of the two arrays. -/
theorem flushed0_prod (c : Dev nD) (t : Fin cfg0.N) :
    (Gen.dat0 (F := Ideal) V c).flushed 4 t
      = ((cfg0.win 4).blk t).view.read (Elt Ideal) (prodArr0 (V c main_arg0) (V c main_v29)) := by
  show (cfg0.win 4).cut (grid0.coords t) ((Gen.dat0 (F := Ideal) V c).after 4 t) = _
  rw [Gen.after0_4]
  unfold Gen.out0_4
  rw [View.canon_unit_zero offsets_zero0]
  simp only [View.ld_unit_zero (S := S5000x256) offsets_zero0, View.ld_unit_zero (S := S256x128) offsets_zero0]
  obtain ⟨-, -, -, -, -, -, -, -, e0, e1, -⟩ := index_facts0 t
  funext y
  obtain ⟨p, q, rfl⟩ : ∃ (p : Fin 5000) (q : Fin 128), y = ix2 p q := ⟨y 0, y 1, eq_ix2 y⟩
  have htN : t.val < grid0.N := t.isLt
  have hb : t.val * 5000 + p.val < 50000 := by have := Gen.N_0; omega
  have hrow : (((cfg0.win 4).blk t).view.emb (ix2 p q) 0).val = (⟨t.val * 5000 + p.val, hb⟩ : Fin 50000).val := by
    show win0_4.index t (0 : Fin 2) * 5000 + 1 * p.val = t.val * 5000 + p.val; omega
  have hcol : (((cfg0.win 4).blk t).view.emb (ix2 p q) 1).val = q.val := by
    show win0_4.index t (1 : Fin 2) * 128 + 1 * q.val = q.val; omega
  show Gen.k0_pay1 (F := Ideal) (Gen.iblk0 V c 0 t) (Gen.iblk0 V c 1 t) (ix2 p q)
    = prodArr0 (V c main_arg0) (V c main_v29) (((cfg0.win 4).blk t).view.emb (ix2 p q))
  refine ((pay0_prod_apply _ _ p q).trans ?_).trans
    (prodArr0_apply _ _ _ ⟨t.val * 5000 + p.val, hb⟩ q hrow hcol).symm
  exact Finset.sum_congr rfl fun k _ => by
    rw [blk0_lhs_apply V c t p k ⟨t.val * 5000 + p.val, hb⟩ rfl, blk0_rhs_apply V c t k q]

/-- Point `t` writes, to the second result, block `t` of the scaled and shifted product of the four arrays. -/
theorem flushed0_self (c : Dev nD) (t : Fin cfg0.N) :
    (Gen.dat0 (F := Ideal) V c).flushed 5 t
      = ((cfg0.win 5).blk t).view.read (Elt Ideal)
          (selfArr0 (V c main_arg0) (V c main_v29) (V c main_v28) (V c main_v30)) := by
  show (cfg0.win 5).cut (grid0.coords t) ((Gen.dat0 (F := Ideal) V c).after 5 t) = _
  rw [Gen.after0_5]
  unfold Gen.out0_5
  rw [View.canon_unit_zero offsets_zero0]
  simp only [View.ld_unit_zero (S := S5000x256) offsets_zero0, View.ld_unit_zero (S := S256x128) offsets_zero0,
    View.ld_unit_zero (S := S5000x1) offsets_zero0, View.ld_unit_zero (S := S1x128) offsets_zero0]
  obtain ⟨-, -, -, -, -, -, -, -, -, -, e0, e1⟩ := index_facts0 t
  funext y
  obtain ⟨p, q, rfl⟩ : ∃ (p : Fin 5000) (q : Fin 128), y = ix2 p q := ⟨y 0, y 1, eq_ix2 y⟩
  have htN : t.val < grid0.N := t.isLt
  have hb : t.val * 5000 + p.val < 50000 := by have := Gen.N_0; omega
  have hrow : (((cfg0.win 5).blk t).view.emb (ix2 p q) 0).val = (⟨t.val * 5000 + p.val, hb⟩ : Fin 50000).val := by
    show win0_5.index t (0 : Fin 2) * 5000 + 1 * p.val = t.val * 5000 + p.val; omega
  have hcol : (((cfg0.win 5).blk t).view.emb (ix2 p q) 1).val = q.val := by
    show win0_5.index t (1 : Fin 2) * 128 + 1 * q.val = q.val; omega
  show Gen.k0_pay2 (F := Ideal) (Gen.iblk0 V c 0 t) (Gen.iblk0 V c 1 t) (Gen.iblk0 V c 2 t) (Gen.iblk0 V c 3 t) (ix2 p q)
    = selfArr0 (V c main_arg0) (V c main_v29) (V c main_v28) (V c main_v30) (((cfg0.win 5).blk t).view.emb (ix2 p q))
  refine ((pay0_self_apply _ _ _ _ p q).trans ?_).trans
    (selfArr0_apply _ _ _ _ _ ⟨t.val * 5000 + p.val, hb⟩ q hrow hcol).symm
  rw [blk0_col_apply V c t p 0 ⟨t.val * 5000 + p.val, hb⟩ rfl, blk0_row_apply V c t 0 q]
  refine congrArg (· + _) (congrArg (· * _) ?_)
  exact Finset.sum_congr rfl fun k _ => by
    rw [blk0_lhs_apply V c t p k ⟨t.val * 5000 + p.val, hb⟩ rfl, blk0_rhs_apply V c t k q]

/-! ## The ten blocks cover the rows -/

/-- An index of the first result is in point `t`'s block iff each coordinate is in the block's range on its axis. -/
theorem mem_blk0_prod (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v31_0).slice (win0_4.rect t)).set ↔ _
  rw [View.set_slice_whole, Rect.mem_set_unit]
  exact Iff.rfl

/-- The same for the second result. -/
theorem mem_blk0_self (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31_1).slice (win0_5.rect t)).set ↔ _
  rw [View.set_slice_whole, Rect.mem_set_unit]
  exact Iff.rfl

/-- Row `r` of the first result is in the block of the point `r / 5000`, which writes back. -/
theorem cover0_prod (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by have := Gen.N_0; show _ < grid0.N; omega⟩, rfl⟩
  obtain ⟨-, -, -, -, -, -, -, -, e0, e1, -⟩ := index_facts0 t
  refine ⟨t, Gen.flush0_4 t, ?_⟩
  rw [mem_blk0_prod]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- Row `r` of the second result is in the block of the point `r / 5000`, which writes back. -/
theorem cover0_self (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by have := Gen.N_0; show _ < grid0.N; omega⟩, rfl⟩
  obtain ⟨-, -, -, -, -, -, -, -, -, -, e0, e1⟩ := index_facts0 t
  refine ⟨t, Gen.flush0_5 t, ?_⟩
  rw [mem_blk0_self]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-! ## The two result arrays after the run -/

/-- The first result ends holding the product of the two arrays. -/
theorem final0_prod (c : Dev nD) :
    (Gen.dat0 (F := Ideal) V c).arrAt 4 cfg0.N = prodArr0 (V c main_arg0) (V c main_v29) :=
  (Gen.dat0 (F := Ideal) V c).arrAt_eq_of_cover 4 (prodArr0 (V c main_arg0) (V c main_v29))
    (fun t _ => flushed0_prod V c t) cover0_prod

/-- The second result ends holding the scaled and shifted product of the four arrays. -/
theorem final0_self (c : Dev nD) :
    (Gen.dat0 (F := Ideal) V c).arrAt 5 cfg0.N
      = selfArr0 (V c main_arg0) (V c main_v29) (V c main_v28) (V c main_v30) :=
  (Gen.dat0 (F := Ideal) V c).arrAt_eq_of_cover 5 (selfArr0 (V c main_arg0) (V c main_v29) (V c main_v28) (V c main_v30))
    (fun t _ => flushed0_self V c t) cover0_self

/-- THE FIRST RESULT at row `n`, lane `j`: the sum over the 256 contracted coordinates of the left array's row `n`
    times the weight's column `j`. -/
theorem region0_prod (c : Dev nD) (A : S50000x256.Idx → EReal) (B : S256x128.Idx → EReal)
    (hA : V c main_arg0 = A) (hB : V c main_v29 = B) (n : Fin 50000) (j : Fin 128) :
    ((Gen.dat0 (F := Ideal) V c).arrAt 4 cfg0.N : S50000x128.Idx → EReal) (ix2 n j)
      = ∑ k : Fin 256, A (ix2 n k) * B (ix2 k j) := by
  subst hA hB
  exact (congrFun (final0_prod V c) (ix2 n j)).trans (prodArr0_apply _ _ _ n j rfl rfl)

/-- THE SECOND RESULT at row `n`, lane `j`: that sum times the column's entry of row `n`, plus the bias row's entry
    of lane `j`. -/
theorem region0_self (c : Dev nD) (A : S50000x256.Idx → EReal) (B : S256x128.Idx → EReal) (D : S50000x1.Idx → EReal)
    (E : S1x128.Idx → EReal) (hA : V c main_arg0 = A) (hB : V c main_v29 = B) (hD : V c main_v28 = D)
    (hE : V c main_v30 = E) (n : Fin 50000) (j : Fin 128) :
    ((Gen.dat0 (F := Ideal) V c).arrAt 5 cfg0.N : S50000x128.Idx → EReal) (ix2 n j)
      = (∑ k : Fin 256, A (ix2 n k) * B (ix2 k j)) * D (ix2 n (0 : Fin 1)) + E (ix2 (0 : Fin 1) j) := by
  subst hA hB hD hE
  exact (congrFun (final0_self V c) (ix2 n j)).trans (selfArr0_apply _ _ _ _ _ n j rfl rfl)

end Cert.KernelIdeal.Dense

end
-- ==== Proof.DenseBlocks1.lean ====
/-
  Region 1 of the program: a row-blocked dense layer, read index by index at the ideal values.

  The pipeline walks the 128-column left operand in ten row blocks of 5000 rows; at each block the body multiplies the
  block by the whole [128, 128] weight (the cast of the left operand to the narrower format is the identity on the
  ideal values and the product is the exact sum of products), writes the product to the first result, and writes the
  product scaled row by row by a [5000, 1] column and shifted lane by lane by a [1, 128] row to the second result.
  Here: the body's two stored values at an index of the block (`pay1_prod_apply`, `pay1_self_apply`); each
  input block at an index as the array it is staged from at the row `5000 t + p` (`blk1_lhs_apply` …); what a grid
  point writes back as its block of ONE function of the arrays (`flushed1_prod`, `flushed1_self`); the ten blocks
  cover the 50000 rows (`cover1_prod`, `cover1_self`); so both result arrays after the run, at every index
  (`region1_prod`, `region1_self`).
-/
import proofs.«105954_j32255204393505_2_alg».proof.Proof.Gen.KernelIdeal.Frame
import proofs.«105954_j32255204393505_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Dense

open Cert.KernelIdeal Idealize.ShloMosaic Idealize.ShloMosaic.TcCoe Idealize.SL.Sem
open Idealize.ShloMosaic.ValueIdx
open Idealize.ShloMosaic.Pipeline (Dat)

/-! ## The product's operand indices: a plain [5000, 128] · [128, 128] contraction -/

/-- The left operand's row coordinate is the result's row. -/
theorem dot1_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column coordinate is the contracted one. -/
theorem dot1_lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem dot1_rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the result's column. -/
theorem dot1_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The body's two stored values at an index of the block -/

/-- The product stored to the first result: at `(p, q)`, the sum over the 128 contracted coordinates of the left block's
    row `p` times the weight's column `q`. -/
theorem pay1_prod_apply (x0 : Vec Ideal S5000x128 .f32) (x1 : Vec Ideal S128x128 .bf16) (p : Fin 5000) (q : Fin 128) :
    Gen.k1_pay1 (F := Ideal) x0 x1 (ix2 p q) = ∑ k : Fin 128, x0 (ix2 p k) * x1 (ix2 k q) := by
  unfold Gen.k1_pay1
  show FloatOps.matmul (F := Ideal) dot_S5000x128_S128x128_S5000x128_1_0_0_1_n_n none
      (truncf (F := Ideal) .bf16 (shapeCast S5000x128 x0 _) _) (shapeCast S128x128 x1 _)
      (constant (F := Ideal) S5000x128 .f32 0x00000000#32) (ix2 p q) = _
  rw [shapeCast_self, shapeCast_self]
  refine (Ideal.matmul_constant_zero_apply (φ₁ := .bf16) (φ₂ := .bf16) dot_S5000x128_S128x128_S5000x128_1_0_0_1_n_n none
    (truncf (F := Ideal) .bf16 x0 _) x1 (ix2 p q)).trans ?_
  exact Cert.Pooling.sum_contr_plain dot_S5000x128_S128x128_S5000x128_1_0_0_1_n_n rfl rfl
    dot1_lhs_row dot1_lhs_contr dot1_rhs_contr dot1_rhs_col _ _ p q

/-- The value stored to the second result: the product at `(p, q)` times the column's entry of row `p`, plus the
    row's entry of lane `q`. -/
theorem pay1_self_apply (x0 : Vec Ideal S5000x128 .f32) (x1 : Vec Ideal S128x128 .bf16) (x2 : Vec Ideal S5000x1 .f32)
    (x3 : Vec Ideal S1x128 .f32) (p : Fin 5000) (q : Fin 128) :
    Gen.k1_pay2 (F := Ideal) x0 x1 x2 x3 (ix2 p q)
      = (∑ k : Fin 128, x0 (ix2 p k) * x1 (ix2 k q)) * x2 (ix2 p (0 : Fin 1)) + x3 (ix2 (0 : Fin 1) q) := by
  unfold Gen.k1_pay2
  show Gen.k1_pay1 (F := Ideal) x0 x1 (ix2 p q)
        * broadcastTo S5000x128 (shapeCast S5000x1 x2 _) _ (ix2 p q)
      + broadcastTo S5000x128 (shapeCast S1x128 x3 _) _ (ix2 p q) = _
  rw [shapeCast_self, shapeCast_self, pay1_prod_apply, Cert.Pooling.broadcastTo_a1_ab_apply, broadcastTo_1b_ab_apply]

/-! ## The arrays' closed forms -/

/-- The first result as one function of the two arrays the product reads. -/
def prodArr1 (a : S50000x128.Idx → EReal) (b : S128x128.Idx → EReal) : S50000x128.Idx → EReal := fun i =>
  ∑ k : Fin 128, a (ix2 (⟨(i 0).val, idx2_lt0 i⟩ : Fin 50000) k) * b (ix2 k (⟨(i 1).val, idx2_lt1 i⟩ : Fin 128))

/-- The second result as one function of the four arrays the body reads. -/
def selfArr1 (a : S50000x128.Idx → EReal) (b : S128x128.Idx → EReal) (d : S50000x1.Idx → EReal) (e : S1x128.Idx → EReal) :
    S50000x128.Idx → EReal := fun i =>
  (∑ k : Fin 128, a (ix2 (⟨(i 0).val, idx2_lt0 i⟩ : Fin 50000) k) * b (ix2 k (⟨(i 1).val, idx2_lt1 i⟩ : Fin 128)))
      * d (ix2 (⟨(i 0).val, idx2_lt0 i⟩ : Fin 50000) (0 : Fin 1))
    + e (ix2 (0 : Fin 1) (⟨(i 1).val, idx2_lt1 i⟩ : Fin 128))

/-- The product array at an index whose coordinates are `n` and `j`. -/
theorem prodArr1_apply (a : S50000x128.Idx → EReal) (b : S128x128.Idx → EReal) (i : S50000x128.Idx) (n : Fin 50000) (j : Fin 128)
    (h0 : (i 0).val = n.val) (h1 : (i 1).val = j.val) :
    prodArr1 a b i = ∑ k : Fin 128, a (ix2 n k) * b (ix2 k j) := by
  have e0 : (⟨(i 0).val, idx2_lt0 i⟩ : Fin 50000) = n := Fin.ext h0
  have e1 : (⟨(i 1).val, idx2_lt1 i⟩ : Fin 128) = j := Fin.ext h1
  unfold prodArr1
  rw [e0, e1]

/-- The scaled and shifted product array at an index whose coordinates are `n` and `j`. -/
theorem selfArr1_apply (a : S50000x128.Idx → EReal) (b : S128x128.Idx → EReal) (d : S50000x1.Idx → EReal) (e : S1x128.Idx → EReal)
    (i : S50000x128.Idx) (n : Fin 50000) (j : Fin 128) (h0 : (i 0).val = n.val) (h1 : (i 1).val = j.val) :
    selfArr1 a b d e i
      = (∑ k : Fin 128, a (ix2 n k) * b (ix2 k j)) * d (ix2 n (0 : Fin 1)) + e (ix2 (0 : Fin 1) j) := by
  have e0 : (⟨(i 0).val, idx2_lt0 i⟩ : Fin 50000) = n := Fin.ext h0
  have e1 : (⟨(i 1).val, idx2_lt1 i⟩ : Fin 128) = j := Fin.ext h1
  unfold selfArr1
  rw [e0, e1]

variable (V : (c : Dev nD) → (b : Ref sig .tc) → Buf (Elt Ideal) ((c : Thread nD τ).loc b))

/-! ## The windows' blocks as rows of their arrays -/

/-- The bodies' loads and stores are at zero offsets. -/
theorem offsets_zero1 : (![0, 0] : Fin 2 → Nat) = fun _ => 0 := funext fun a => by fin_cases a <;> rfl

/-- The printed index maps, decided over the ten grid points: the three row-blocked windows and the two results are
    at row block `t`, column block 0; the weight and the bias row are whole. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the left operand's block at point `t` is row `5000 t + p` of its array. -/
theorem blk1_lhs_apply (c : Dev nD) (t : Fin cfg1.N) (p : Fin 5000) (k : Fin 128) (n : Fin 50000)
    (hn : n.val = t.val * 5000 + p.val) :
    (Gen.iblk1 (F := Ideal) V c 0 t : S5000x128.Idx → EReal) (ix2 p k) = (V c main_v45 : S50000x128.Idx → EReal) (ix2 n k) := by
  obtain ⟨e0, e1, -⟩ := index_facts1 t
  unfold Gen.iblk1
  rw [View.read_apply]
  show (V c main_v45 : S50000x128.Idx → EReal) (((cfg1.win 0).blk t).view.emb (ix2 p k)) = _
  refine congrArg (V c main_v45 : S50000x128.Idx → EReal) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- The weight's block at every point is the whole weight. -/
theorem blk1_rhs_apply (c : Dev nD) (t : Fin cfg1.N) (k : Fin 128) (q : Fin 128) :
    (Gen.iblk1 (F := Ideal) V c 1 t : S128x128.Idx → EReal) (ix2 k q) = (V c main_v49 : S128x128.Idx → EReal) (ix2 k q) := by
  obtain ⟨-, -, e0, e1, -⟩ := index_facts1 t
  unfold Gen.iblk1
  rw [View.read_apply]
  show (V c main_v49 : S128x128.Idx → EReal) (((cfg1.win 1).blk t).view.emb (ix2 k q)) = _
  refine congrArg (V c main_v49 : S128x128.Idx → EReal) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- Row `p` of the column's block at point `t` is row `5000 t + p` of the column. -/
theorem blk1_col_apply (c : Dev nD) (t : Fin cfg1.N) (p : Fin 5000) (u : Fin 1) (n : Fin 50000)
    (hn : n.val = t.val * 5000 + p.val) :
    (Gen.iblk1 (F := Ideal) V c 2 t : S5000x1.Idx → EReal) (ix2 p u) = (V c main_v28 : S50000x1.Idx → EReal) (ix2 n u) := by
  obtain ⟨-, -, -, -, e0, e1, -⟩ := index_facts1 t
  unfold Gen.iblk1
  rw [View.read_apply]
  show (V c main_v28 : S50000x1.Idx → EReal) (((cfg1.win 2).blk t).view.emb (ix2 p u)) = _
  refine congrArg (V c main_v28 : S50000x1.Idx → EReal) (funext fun a => Fin.ext ?_)
  match a with
  | ⟨0, _⟩ => show win1_2.index t (0 : Fin 2) * 5000 + 1 * p.val = n.val; omega
  | ⟨1, _⟩ => show win1_2.index t (1 : Fin 2) * 1 + 1 * u.val = u.val; omega

/-- The bias row's block at every point is the whole row. -/
theorem blk1_row_apply (c : Dev nD) (t : Fin cfg1.N) (u : Fin 1) (q : Fin 128) :
    (Gen.iblk1 (F := Ideal) V c 3 t : S1x128.Idx → EReal) (ix2 u q) = (V c main_v48 : S1x128.Idx → EReal) (ix2 u q) := by
  obtain ⟨-, -, -, -, -, -, e0, e1, -⟩ := index_facts1 t
  unfold Gen.iblk1
  rw [View.read_apply]
  show (V c main_v48 : S1x128.Idx → EReal) (((cfg1.win 3).blk t).view.emb (ix2 u q)) = _
  refine congrArg (V c main_v48 : S1x128.Idx → EReal) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-! ## What a grid point writes back -/

/-- Point `t` writes, to the first result, block `t` of the product of the two arrays. -/
theorem flushed1_prod (c : Dev nD) (t : Fin cfg1.N) :
    (Gen.dat1 (F := Ideal) V c).flushed 4 t
      = ((cfg1.win 4).blk t).view.read (Elt Ideal) (prodArr1 (V c main_v45) (V c main_v49)) := by
  show (cfg1.win 4).cut (grid1.coords t) ((Gen.dat1 (F := Ideal) V c).after 4 t) = _
  rw [Gen.after1_4]
  unfold Gen.out1_4
  rw [View.canon_unit_zero offsets_zero1]
  simp only [View.ld_unit_zero (S := S5000x128) offsets_zero1, View.ld_unit_zero (S := S128x128) offsets_zero1]
  obtain ⟨-, -, -, -, -, -, -, -, e0, e1, -⟩ := index_facts1 t
  funext y
  obtain ⟨p, q, rfl⟩ : ∃ (p : Fin 5000) (q : Fin 128), y = ix2 p q := ⟨y 0, y 1, eq_ix2 y⟩
  have htN : t.val < grid1.N := t.isLt
  have hb : t.val * 5000 + p.val < 50000 := by have := Gen.N_1; omega
  have hrow : (((cfg1.win 4).blk t).view.emb (ix2 p q) 0).val = (⟨t.val * 5000 + p.val, hb⟩ : Fin 50000).val := by
    show win1_4.index t (0 : Fin 2) * 5000 + 1 * p.val = t.val * 5000 + p.val; omega
  have hcol : (((cfg1.win 4).blk t).view.emb (ix2 p q) 1).val = q.val := by
    show win1_4.index t (1 : Fin 2) * 128 + 1 * q.val = q.val; omega
  show Gen.k1_pay1 (F := Ideal) (Gen.iblk1 V c 0 t) (Gen.iblk1 V c 1 t) (ix2 p q)
    = prodArr1 (V c main_v45) (V c main_v49) (((cfg1.win 4).blk t).view.emb (ix2 p q))
  refine ((pay1_prod_apply _ _ p q).trans ?_).trans
    (prodArr1_apply _ _ _ ⟨t.val * 5000 + p.val, hb⟩ q hrow hcol).symm
  exact Finset.sum_congr rfl fun k _ => by
    rw [blk1_lhs_apply V c t p k ⟨t.val * 5000 + p.val, hb⟩ rfl, blk1_rhs_apply V c t k q]

/-- Point `t` writes, to the second result, block `t` of the scaled and shifted product of the four arrays. -/
theorem flushed1_self (c : Dev nD) (t : Fin cfg1.N) :
    (Gen.dat1 (F := Ideal) V c).flushed 5 t
      = ((cfg1.win 5).blk t).view.read (Elt Ideal)
          (selfArr1 (V c main_v45) (V c main_v49) (V c main_v28) (V c main_v48)) := by
  show (cfg1.win 5).cut (grid1.coords t) ((Gen.dat1 (F := Ideal) V c).after 5 t) = _
  rw [Gen.after1_5]
  unfold Gen.out1_5
  rw [View.canon_unit_zero offsets_zero1]
  simp only [View.ld_unit_zero (S := S5000x128) offsets_zero1, View.ld_unit_zero (S := S128x128) offsets_zero1,
    View.ld_unit_zero (S := S5000x1) offsets_zero1, View.ld_unit_zero (S := S1x128) offsets_zero1]
  obtain ⟨-, -, -, -, -, -, -, -, -, -, e0, e1⟩ := index_facts1 t
  funext y
  obtain ⟨p, q, rfl⟩ : ∃ (p : Fin 5000) (q : Fin 128), y = ix2 p q := ⟨y 0, y 1, eq_ix2 y⟩
  have htN : t.val < grid1.N := t.isLt
  have hb : t.val * 5000 + p.val < 50000 := by have := Gen.N_1; omega
  have hrow : (((cfg1.win 5).blk t).view.emb (ix2 p q) 0).val = (⟨t.val * 5000 + p.val, hb⟩ : Fin 50000).val := by
    show win1_5.index t (0 : Fin 2) * 5000 + 1 * p.val = t.val * 5000 + p.val; omega
  have hcol : (((cfg1.win 5).blk t).view.emb (ix2 p q) 1).val = q.val := by
    show win1_5.index t (1 : Fin 2) * 128 + 1 * q.val = q.val; omega
  show Gen.k1_pay2 (F := Ideal) (Gen.iblk1 V c 0 t) (Gen.iblk1 V c 1 t) (Gen.iblk1 V c 2 t) (Gen.iblk1 V c 3 t) (ix2 p q)
    = selfArr1 (V c main_v45) (V c main_v49) (V c main_v28) (V c main_v48) (((cfg1.win 5).blk t).view.emb (ix2 p q))
  refine ((pay1_self_apply _ _ _ _ p q).trans ?_).trans
    (selfArr1_apply _ _ _ _ _ ⟨t.val * 5000 + p.val, hb⟩ q hrow hcol).symm
  rw [blk1_col_apply V c t p 0 ⟨t.val * 5000 + p.val, hb⟩ rfl, blk1_row_apply V c t 0 q]
  refine congrArg (· + _) (congrArg (· * _) ?_)
  exact Finset.sum_congr rfl fun k _ => by
    rw [blk1_lhs_apply V c t p k ⟨t.val * 5000 + p.val, hb⟩ rfl, blk1_rhs_apply V c t k q]

/-! ## The ten blocks cover the rows -/

/-- An index of the first result is in point `t`'s block iff each coordinate is in the block's range on its axis. -/
theorem mem_blk1_prod (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v50_0).slice (win1_4.rect t)).set ↔ _
  rw [View.set_slice_whole, Rect.mem_set_unit]
  exact Iff.rfl

/-- The same for the second result. -/
theorem mem_blk1_self (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v50_1).slice (win1_5.rect t)).set ↔ _
  rw [View.set_slice_whole, Rect.mem_set_unit]
  exact Iff.rfl

/-- Row `r` of the first result is in the block of the point `r / 5000`, which writes back. -/
theorem cover1_prod (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by have := Gen.N_1; show _ < grid1.N; omega⟩, rfl⟩
  obtain ⟨-, -, -, -, -, -, -, -, e0, e1, -⟩ := index_facts1 t
  refine ⟨t, Gen.flush1_4 t, ?_⟩
  rw [mem_blk1_prod]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- Row `r` of the second result is in the block of the point `r / 5000`, which writes back. -/
theorem cover1_self (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by have := Gen.N_1; show _ < grid1.N; omega⟩, rfl⟩
  obtain ⟨-, -, -, -, -, -, -, -, -, -, e0, e1⟩ := index_facts1 t
  refine ⟨t, Gen.flush1_5 t, ?_⟩
  rw [mem_blk1_self]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-! ## The two result arrays after the run -/

/-- The first result ends holding the product of the two arrays. -/
theorem final1_prod (c : Dev nD) :
    (Gen.dat1 (F := Ideal) V c).arrAt 4 cfg1.N = prodArr1 (V c main_v45) (V c main_v49) :=
  (Gen.dat1 (F := Ideal) V c).arrAt_eq_of_cover 4 (prodArr1 (V c main_v45) (V c main_v49))
    (fun t _ => flushed1_prod V c t) cover1_prod

/-- The second result ends holding the scaled and shifted product of the four arrays. -/
theorem final1_self (c : Dev nD) :
    (Gen.dat1 (F := Ideal) V c).arrAt 5 cfg1.N
      = selfArr1 (V c main_v45) (V c main_v49) (V c main_v28) (V c main_v48) :=
  (Gen.dat1 (F := Ideal) V c).arrAt_eq_of_cover 5 (selfArr1 (V c main_v45) (V c main_v49) (V c main_v28) (V c main_v48))
    (fun t _ => flushed1_self V c t) cover1_self

/-- THE FIRST RESULT at row `n`, lane `j`: the sum over the 128 contracted coordinates of the left array's row `n`
    times the weight's column `j`. -/
theorem region1_prod (c : Dev nD) (A : S50000x128.Idx → EReal) (B : S128x128.Idx → EReal)
    (hA : V c main_v45 = A) (hB : V c main_v49 = B) (n : Fin 50000) (j : Fin 128) :
    ((Gen.dat1 (F := Ideal) V c).arrAt 4 cfg1.N : S50000x128.Idx → EReal) (ix2 n j)
      = ∑ k : Fin 128, A (ix2 n k) * B (ix2 k j) := by
  subst hA hB
  exact (congrFun (final1_prod V c) (ix2 n j)).trans (prodArr1_apply _ _ _ n j rfl rfl)

/-- THE SECOND RESULT at row `n`, lane `j`: that sum times the column's entry of row `n`, plus the bias row's entry
    of lane `j`. -/
theorem region1_self (c : Dev nD) (A : S50000x128.Idx → EReal) (B : S128x128.Idx → EReal) (D : S50000x1.Idx → EReal)
    (E : S1x128.Idx → EReal) (hA : V c main_v45 = A) (hB : V c main_v49 = B) (hD : V c main_v28 = D)
    (hE : V c main_v48 = E) (n : Fin 50000) (j : Fin 128) :
    ((Gen.dat1 (F := Ideal) V c).arrAt 5 cfg1.N : S50000x128.Idx → EReal) (ix2 n j)
      = (∑ k : Fin 128, A (ix2 n k) * B (ix2 k j)) * D (ix2 n (0 : Fin 1)) + E (ix2 (0 : Fin 1) j) := by
  subst hA hB hD hE
  exact (congrFun (final1_self V c) (ix2 n j)).trans (selfArr1_apply _ _ _ _ _ n j rfl rfl)

end Cert.KernelIdeal.Dense

end
-- ==== Proof.GraphConv.lean ====
/-
  The two-layer graph convolution both programs compute, as ONE function of the argument arrays, entry by entry over
  the extended reals.

  A graph convolution acts on each COLUMN of a node-feature matrix by itself. For a column `h` (one number per node),
  a bias entry `b`, the per-edge weights `w`, the per-node self weights `d`, and the two words of each edge — the word
  `cidx e` naming the node the edge lands on (read signed; an edge whose word names no node is dropped) and the word
  `ridx e` naming the node it comes from (read signed and clamped into the node range) —, node `n`'s entry is

      (z + Σ over the edges e landing on n of  h (source of e) · w e)  +  (h n · d n + b)

  with `z` the entry the sum starts from. Layer 1 applies this to the columns of `x · W1` and clamps the result at
  `floor` from below (the rectifier); the output layer applies it to the columns of `hidden · Wo`.
-/
import Idealize.ShloMosaic.PureOps.Ideal
import Idealize.ShloMosaic.Lib.ValueIdx

noncomputable section

open scoped BigOperators

namespace Cert.GraphConv

open Idealize.ShloMosaic Idealize.ShloMosaic.ValueIdx

/-- The shape of one index word per edge. -/
abbrev Words : Shape := ⟨2, ![800000, 1]⟩

/-- The node an edge comes from: its source word read signed and clamped into `[0, 49999]`. -/
def source (ridx : IVec Words 32) (e : Fin 800000) : Fin 50000 :=
  ⟨min (ridx (ix2 e (0 : Fin 1))).toInt.toNat (50000 - 1), by omega⟩

/-- The edges that land on node `n`: those whose target word, read signed, is `n`. -/
def landing (cidx : IVec Words 32) (n : Fin 50000) : Finset (Fin 800000) :=
  Finset.univ.filter fun e : Fin 800000 => (cidx (ix2 e (0 : Fin 1))).toInt = (n.val : Int)

/-- One column of a graph convolution at node `n`: the weighted sum of the column over the edges landing on `n`,
    started from `z`, plus the node's own entry weighted by `d n` and the bias entry. -/
def convCol (z : EReal) (cidx ridx : IVec Words 32) (w : Words.Idx → EReal) (d : Fin 50000 → EReal)
    (h : Fin 50000 → EReal) (b : EReal) (n : Fin 50000) : EReal :=
  (z + ∑ e ∈ landing cidx n, h (source ridx e) * w (ix2 e (0 : Fin 1))) + (h n * d n + b)

/-- The hidden layer: the convolution of the columns of `x · W1` with bias `b1`, clamped at `floor` from below. -/
def hidden (z floor : EReal) (cidx ridx : IVec Words 32) (w : Words.Idx → EReal) (d : Fin 50000 → EReal)
    (x : Fin 50000 → Fin 256 → EReal) (W1 : Fin 256 → Fin 128 → EReal) (b1 : Fin 128 → EReal)
    (n : Fin 50000) (k : Fin 128) : EReal :=
  max (convCol z cidx ridx w d (fun n' => ∑ i : Fin 256, x n' i * W1 i k) (b1 k) n) floor

/-- An output head: the convolution of the columns of `hidden · Wo` with bias `bo`. -/
def head (z floor : EReal) (cidx ridx : IVec Words 32) (w : Words.Idx → EReal) (d : Fin 50000 → EReal)
    (x : Fin 50000 → Fin 256 → EReal) (W1 : Fin 256 → Fin 128 → EReal) (b1 : Fin 128 → EReal)
    (Wo : Fin 128 → Fin 64 → EReal) (bo : Fin 64 → EReal) (n : Fin 50000) (j : Fin 64) : EReal :=
  convCol z cidx ridx w d (fun n' => ∑ k : Fin 128, hidden z floor cidx ridx w d x W1 b1 n' k * Wo k j) (bo j) n

/-- The reference adds the bias last: `(sum + self) + b`; the kernel adds it to the self term first. The two are
    one number: addition of extended reals is associative. -/
theorem convCol_assoc (z : EReal) (cidx ridx : IVec Words 32) (w : Words.Idx → EReal) (d : Fin 50000 → EReal)
    (h : Fin 50000 → EReal) (b : EReal) (n : Fin 50000) :
    ((z + ∑ e ∈ landing cidx n, h (source ridx e) * w (ix2 e (0 : Fin 1))) + h n * d n) + b
      = convCol z cidx ridx w d h b n := by
  unfold convCol
  rw [add_assoc]

end Cert.GraphConv

end
-- ==== Proof.LibScatterRows.lean ====
/-
  A scatter-add whose every update is addressed by ONE signed index word (scatter indices `[E, 1]`, the index vector on
  axis 1, its one component sent to operand axis 0, that axis inserted), read at one element over the extended reals.
  Two shapes of it: scalar updates `[E]` into a vector `[N]`, and row updates `[E, M]` into a matrix `[N, M]` (axis 1 of
  the update is the window axis). Update `e` lands on row `n` exactly when its index word, read signed, is `n`; an update
  whose word is no row is dropped. So the element is the operand's element plus the sum over the updates landing on
  its row. Stated over variable extents, so nothing here enumerates an axis.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.ScatterRows

open Idealize.ShloMosaic Idealize.ShloMosaic.ValueIdx

/-! ## Scalar updates into a vector -/

/-- The dimension numbers of a scatter of scalar updates `[E]` into `[N]` by index words `[E, 1]`: no update window
    axes, the operand's one axis inserted, the one index component sent to it, index vector on axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The operand's one axis is inserted, so an update has no window coordinate on it. -/
theorem window_vec {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  refine dif_neg ?_
  show ¬ a ∈ (List.finRange 1).filter (fun b => decide (b ∉ ([0] : List (Fin 1))))
  revert a; decide

/-- The start of update `e` on the operand's axis is its index word, read signed. -/
theorem start_vec {N E w : Nat} (wf : ScatterDims.WF ⟨1, ![N]⟩ ⟨2, ![E, 1]⟩ ⟨1, ![E]⟩ [] [0] [0] 1)
    (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ ([0] : List (Fin 1)) by decide)]
  congr 2
  funext b; refine Fin.ext ?_
  match b with
  | ⟨0, _⟩ => rfl
  | ⟨1, _⟩ => rfl

/-- WHERE AN UPDATE LANDS: update `e` lands on `n` exactly when its index word, read signed, is `n`. -/
theorem resultIdx?_vec {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n) ↔ (idx (ix2 e (0 : Fin 1))).toInt = (n.val : Int) := by
  have hn := n.isLt
  unfold ScatterDims.resultIdx?
  constructor
  · intro h
    split at h
    · next hin =>
      have hf := Option.some.inj h
      have h0 : ((vecDims N E wf).start (ix1 e) idx 0 + ((vecDims N E wf).window (ix1 e) 0 : Nat)).toNat = n.val :=
        congrArg (fun i : (⟨1, ![N]⟩ : Shape).Idx => (i 0).val) hf
      have b0 := (hin 0).1
      rw [window_vec, start_vec] at h0 b0
      omega
    · exact absurd h (by simp)
  · intro h0
    have hin : ∀ a : Fin 1, 0 ≤ (vecDims N E wf).start (ix1 e) idx a + ((vecDims N E wf).window (ix1 e) a : Nat) ∧
        (vecDims N E wf).start (ix1 e) idx a + ((vecDims N E wf).window (ix1 e) a : Nat)
          < ((⟨1, ![N]⟩ : Shape).size a : Nat) := by
      intro a
      match a with
      | ⟨0, _⟩ =>
        show 0 ≤ (vecDims N E wf).start (ix1 e) idx 0 + ((vecDims N E wf).window (ix1 e) 0 : Nat) ∧
          (vecDims N E wf).start (ix1 e) idx 0 + ((vecDims N E wf).window (ix1 e) 0 : Nat) < (N : Int)
        rw [window_vec, start_vec, h0]; omega
    rw [dif_pos hin]
    congr 1
    funext a; refine Fin.ext ?_
    match a with
    | ⟨0, _⟩ =>
      show ((vecDims N E wf).start (ix1 e) idx 0 + ((vecDims N E wf).window (ix1 e) 0 : Nat)).toNat = n.val
      rw [window_vec, start_vec, h0]; omega

/-- The scatter-add of `vecDims` read at `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n) =
      x (ix1 n) + ∑ e ∈ Finset.univ.filter (fun e : Fin E => (idx (ix2 e (0 : Fin 1))).toInt = (n.val : Int)), upd (ix1 e) := by
  show Ideal.hostScatterAdd (vecDims N E wf) x idx upd (ix1 n) = _
  unfold Ideal.hostScatterAdd
  congr 1
  -- re-index the sum over the update's indices by their one coordinate
  refine Finset.sum_nbij' (fun j => j 0) (fun e => ix1 e) ?_ ?_ ?_ ?_ ?_
  · intro j hj
    have h := (Finset.mem_filter.1 hj).2
    have h' : (vecDims N E wf).resultIdx? (ix1 (j 0)) idx = some (ix1 n) :=
      (congrArg (fun q => (vecDims N E wf).resultIdx? q idx) (eq_ix1 j)).symm.trans h
    exact Finset.mem_filter.2 ⟨Finset.mem_univ _, (resultIdx?_vec wf idx (j 0) n).1 h'⟩
  · intro e he
    exact Finset.mem_filter.2 ⟨Finset.mem_univ _, (resultIdx?_vec wf idx e n).2 (Finset.mem_filter.1 he).2⟩
  · intro j _; exact (eq_ix1 j).symm
  · intro e _; rfl
  · intro j _; exact congrArg upd (eq_ix1 j)

/-- Scalar updates into a vector, read at `n`. -/
theorem scatterAdd_vec_apply_of_fields {N E w : Nat} {φ : FTy}
    (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) =
      x (ix1 n) + ∑ e ∈ Finset.univ.filter (fun e : Fin E => (idx (ix2 e (0 : Fin 1))).toInt = (n.val : Int)), upd (ix1 e) := by
  obtain ⟨uw, iw, sd, iv, wf⟩ := d
  dsimp only at huw hiw hsd hiv
  subst huw hiw hsd hiv
  exact scatterAdd_vec_apply wf x idx upd n

/-! ## Row updates into a matrix -/

/-- The dimension numbers of a scatter of row updates `[E, M]` into `[N, M]` by index words `[E, 1]`: axis 1 of the
    update the one window axis, operand axis 0 inserted, the one index component sent to it, index vector on axis 1. -/
abbrev rowDims (N M E : Nat) (wf : ScatterDims.WF ⟨2, ![N, M]⟩ ⟨2, ![E, 1]⟩ ⟨2, ![E, M]⟩ [1] [0] [0] 1) :
    ScatterDims ⟨2, ![N, M]⟩ ⟨2, ![E, 1]⟩ ⟨2, ![E, M]⟩ where
  updateWindowDims := [1]
  insertedWindowDims := [0]
  scatterDimsToOperandDims := [0]
  indexVectorDim := 1
  wf := wf

/-- The row axis is inserted, so an update has no window coordinate on it. -/
theorem window_rows_zero {N M E : Nat} (wf : ScatterDims.WF ⟨2, ![N, M]⟩ ⟨2, ![E, 1]⟩ ⟨2, ![E, M]⟩ [1] [0] [0] 1)
    (j : (⟨2, ![E, M]⟩ : Shape).Idx) :
    (rowDims N M E wf).window j 0 = 0 := by
  unfold ScatterDims.window
  refine dif_neg ?_
  show ¬ (0 : Fin 2) ∈ (List.finRange 2).filter (fun b => decide (b ∉ ([0] : List (Fin 2))))
  decide

/-- On the column axis the window coordinate of update `(e, k')` is `k'`. -/
theorem window_rows_one {N M E : Nat} (wf : ScatterDims.WF ⟨2, ![N, M]⟩ ⟨2, ![E, 1]⟩ ⟨2, ![E, M]⟩ [1] [0] [0] 1)
    (e : Fin E) (k' : Fin M) :
    (rowDims N M E wf).window (ix2 e k') 1 = k'.val := by
  unfold ScatterDims.window
  have h : (1 : Fin 2) ∈ (rowDims N M E wf).sKept := by
    show (1 : Fin 2) ∈ (List.finRange 2).filter (fun b => decide (b ∉ ([0] : List (Fin 2))))
    decide
  rw [dif_pos h]
  rfl

/-- The start of update `(e, k')` on the row axis is the index word of `e`, read signed. -/
theorem start_rows_zero {N M E w : Nat} (wf : ScatterDims.WF ⟨2, ![N, M]⟩ ⟨2, ![E, 1]⟩ ⟨2, ![E, M]⟩ [1] [0] [0] 1)
    (idx : IVec ⟨2, ![E, 1]⟩ w) (e : Fin E) (k' : Fin M) :
    (rowDims N M E wf).start (ix2 e k') idx 0 = (idx (ix2 e (0 : Fin 1))).toInt := by
  unfold ScatterDims.start
  rw [dif_pos (show (0 : Fin 2) ∈ ([0] : List (Fin 2)) by decide)]
  congr 2
  funext b; refine Fin.ext ?_
  match b with
  | ⟨0, _⟩ => rfl
  | ⟨1, _⟩ => rfl

/-- No index component is sent to the column axis: the start there is 0. -/
theorem start_rows_one {N M E w : Nat} (wf : ScatterDims.WF ⟨2, ![N, M]⟩ ⟨2, ![E, 1]⟩ ⟨2, ![E, M]⟩ [1] [0] [0] 1)
    (idx : IVec ⟨2, ![E, 1]⟩ w) (j : (⟨2, ![E, M]⟩ : Shape).Idx) :
    (rowDims N M E wf).start j idx 1 = 0 := by
  unfold ScatterDims.start
  refine dif_neg ?_
  show ¬ (1 : Fin 2) ∈ ([0] : List (Fin 2))
  decide

/-- WHERE AN UPDATE LANDS: update `(e, k')` lands at `(n, k)` exactly when the index word of `e`, read signed, is `n`
    and `k' = k`. -/
theorem resultIdx?_rows {N M E w : Nat} (wf : ScatterDims.WF ⟨2, ![N, M]⟩ ⟨2, ![E, 1]⟩ ⟨2, ![E, M]⟩ [1] [0] [0] 1)
    (idx : IVec ⟨2, ![E, 1]⟩ w) (e : Fin E) (k' : Fin M) (n : Fin N) (k : Fin M) :
    (rowDims N M E wf).resultIdx? (ix2 e k') idx = some (ix2 n k) ↔
      (idx (ix2 e (0 : Fin 1))).toInt = (n.val : Int) ∧ k' = k := by
  have hn := n.isLt
  have hk := k.isLt
  unfold ScatterDims.resultIdx?
  constructor
  · intro h
    split at h
    · next hin =>
      have hf := Option.some.inj h
      have h0 : ((rowDims N M E wf).start (ix2 e k') idx 0 + ((rowDims N M E wf).window (ix2 e k') 0 : Nat)).toNat = n.val :=
        congrArg (fun i : (⟨2, ![N, M]⟩ : Shape).Idx => (i 0).val) hf
      have h1 : ((rowDims N M E wf).start (ix2 e k') idx 1 + ((rowDims N M E wf).window (ix2 e k') 1 : Nat)).toNat = k.val :=
        congrArg (fun i : (⟨2, ![N, M]⟩ : Shape).Idx => (i 1).val) hf
      have b0 := (hin 0).1
      rw [window_rows_zero, start_rows_zero] at h0 b0
      rw [window_rows_one, start_rows_one] at h1
      exact ⟨by omega, Fin.ext (by omega)⟩
    · exact absurd h (by simp)
  · rintro ⟨h0, rfl⟩
    have hin : ∀ a : Fin 2, 0 ≤ (rowDims N M E wf).start (ix2 e k') idx a + ((rowDims N M E wf).window (ix2 e k') a : Nat) ∧
        (rowDims N M E wf).start (ix2 e k') idx a + ((rowDims N M E wf).window (ix2 e k') a : Nat)
          < ((⟨2, ![N, M]⟩ : Shape).size a : Nat) := by
      intro a
      match a with
      | ⟨0, _⟩ =>
        show 0 ≤ (rowDims N M E wf).start (ix2 e k') idx 0 + ((rowDims N M E wf).window (ix2 e k') 0 : Nat) ∧
          (rowDims N M E wf).start (ix2 e k') idx 0 + ((rowDims N M E wf).window (ix2 e k') 0 : Nat) < (N : Int)
        rw [window_rows_zero, start_rows_zero, h0]; omega
      | ⟨1, _⟩ =>
        show 0 ≤ (rowDims N M E wf).start (ix2 e k') idx 1 + ((rowDims N M E wf).window (ix2 e k') 1 : Nat) ∧
          (rowDims N M E wf).start (ix2 e k') idx 1 + ((rowDims N M E wf).window (ix2 e k') 1 : Nat) < (M : Int)
        rw [window_rows_one, start_rows_one]; omega
    rw [dif_pos hin]
    congr 1
    funext a; refine Fin.ext ?_
    match a with
    | ⟨0, _⟩ =>
      show ((rowDims N M E wf).start (ix2 e k') idx 0 + ((rowDims N M E wf).window (ix2 e k') 0 : Nat)).toNat = n.val
      rw [window_rows_zero, start_rows_zero, h0]; omega
    | ⟨1, _⟩ =>
      show ((rowDims N M E wf).start (ix2 e k') idx 1 + ((rowDims N M E wf).window (ix2 e k') 1 : Nat)).toNat = k'.val
      rw [window_rows_one, start_rows_one]; omega

/-- The scatter-add of `rowDims` read at `(n, k)`: of the updates `(e, k')` only those with `k' = k` land in column `k`,
    so the sum over the landing updates is a sum over the rows `e` whose word is `n`. -/
theorem scatterAdd_rows_apply {N M E w : Nat} {φ : FTy}
    (wf : ScatterDims.WF ⟨2, ![N, M]⟩ ⟨2, ![E, 1]⟩ ⟨2, ![E, M]⟩ [1] [0] [0] 1)
    (x : FVec Ideal ⟨2, ![N, M]⟩ φ) (idx : IVec ⟨2, ![E, 1]⟩ w) (upd : FVec Ideal ⟨2, ![E, M]⟩ φ)
    (n : Fin N) (k : Fin M) :
    Host.scatterAdd (F := Ideal) (rowDims N M E wf) x idx upd (ix2 n k) =
      x (ix2 n k) + ∑ e ∈ Finset.univ.filter (fun e : Fin E => (idx (ix2 e (0 : Fin 1))).toInt = (n.val : Int)), upd (ix2 e k) := by
  show Ideal.hostScatterAdd (rowDims N M E wf) x idx upd (ix2 n k) = _
  unfold Ideal.hostScatterAdd
  congr 1
  -- what membership in the landing set says about an update index, by coordinates
  have key : ∀ j : (⟨2, ![E, M]⟩ : Shape).Idx, (rowDims N M E wf).resultIdx? j idx = some (ix2 n k) →
      (idx (ix2 (j 0) (0 : Fin 1))).toInt = (n.val : Int) ∧ j 1 = k := by
    intro j h
    have h' : (rowDims N M E wf).resultIdx? (ix2 (j 0) (j 1)) idx = some (ix2 n k) :=
      (congrArg (fun q => (rowDims N M E wf).resultIdx? q idx) (eq_ix2 j)).symm.trans h
    exact (resultIdx?_rows wf idx (j 0) (j 1) n k).1 h'
  refine Finset.sum_nbij' (fun j => j 0) (fun e => ix2 e k) ?_ ?_ ?_ ?_ ?_
  · intro j hj
    exact Finset.mem_filter.2 ⟨Finset.mem_univ _, (key j (Finset.mem_filter.1 hj).2).1⟩
  · intro e he
    exact Finset.mem_filter.2
      ⟨Finset.mem_univ _, (resultIdx?_rows wf idx e k n k).2 ⟨(Finset.mem_filter.1 he).2, rfl⟩⟩
  · intro j hj
    have hk := (key j (Finset.mem_filter.1 hj).2).2
    exact ((eq_ix2 j).trans (congrArg (fun q : Fin M => ix2 (j 0) q) hk)).symm
  · intro e _; rfl
  · intro j hj
    have hk := (key j (Finset.mem_filter.1 hj).2).2
    exact congrArg upd ((eq_ix2 j).trans (congrArg (fun q : Fin M => ix2 (j 0) q) hk))

/-- Row updates into a matrix, read at `(n, k)`. -/
theorem scatterAdd_rows_apply_of_fields {N M E w : Nat} {φ : FTy}
    (d : ScatterDims ⟨2, ![N, M]⟩ ⟨2, ![E, 1]⟩ ⟨2, ![E, M]⟩)
    (huw : d.updateWindowDims = [1]) (hiw : d.insertedWindowDims = [0])
    (hsd : d.scatterDimsToOperandDims = [0]) (hiv : d.indexVectorDim = 1)
    (x : FVec Ideal ⟨2, ![N, M]⟩ φ) (idx : IVec ⟨2, ![E, 1]⟩ w) (upd : FVec Ideal ⟨2, ![E, M]⟩ φ)
    (n : Fin N) (k : Fin M) :
    Host.scatterAdd (F := Ideal) d x idx upd (ix2 n k) =
      x (ix2 n k) + ∑ e ∈ Finset.univ.filter (fun e : Fin E => (idx (ix2 e (0 : Fin 1))).toInt = (n.val : Int)), upd (ix2 e k) := by
  obtain ⟨uw, iw, sd, iv, wf⟩ := d
  dsimp only at huw hiw hsd hiv
  subst huw hiw hsd hiv
  exact scatterAdd_rows_apply wf x idx upd n k

end Cert.ScatterRows

end
-- ==== Proof.LibGatherRows.lean ====
/-
  A gather whose every result row is addressed by ONE signed index word (start indices `[E, 1]`, the index vector on
  axis 1, its one component the start on operand axis 0, that axis collapsed, slice size 1 along it), read at one
  element. Two shapes of it: elements of a vector `[N]` gathered into `[E]`, and rows of a matrix `[N, M]` gathered into
  `[E, M]` (axis 1 of the result is the offset axis, the slice the whole row). Result row `e` is the operand's row at
  the index word read signed and clamped into `[0, N - 1]`. Stated over variable extents and any element type.
-/
import Idealize.ShloMosaic.PureOps.ShapeOps
import Idealize.ShloMosaic.Lib.ValueIdx

namespace Cert.GatherRows

open Idealize.ShloMosaic Idealize.ShloMosaic.ValueIdx

/-! ## Elements of a vector -/

/-- The dimension numbers of a gather of elements of `[N]` into `[E]` by index words `[E, 1]`: no offset axes, the
    operand's one axis collapsed, the one index component its start, index vector on axis 1, slice size 1. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of `vecDims` read at `e`: on the one operand axis there is no batching and no offset coordinate, and the
    start is the index word of `e` read signed and clamped into `[0, N - 1]`. -/
theorem gather_vec_apply {N E w : Nat} {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Elements of a vector, read at `e`. -/
theorem gather_vec_apply_of_fields {N E w : Nat} {α : Type} (hN : 0 < N)
    (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e (0 : Fin 1))).toInt.toNat (N - 1), by omega⟩) := by
  obtain ⟨od, cs, ob, sb, sm, iv, ss, wf⟩ := d
  dsimp only at hod hcs hob hsb hsm hiv hss
  subst hod hcs hob hsb hsm hiv hss
  exact gather_vec_apply hN wf x idx e

/-! ## Rows of a matrix -/

/-- The dimension numbers of a gather of rows of `[N, M]` into `[E, M]` by index words `[E, 1]`: axis 1 of the result
    the one offset axis, operand axis 0 collapsed, the one index component its start, index vector on axis 1, the slice
    one whole row. -/
abbrev rowDims (N M E : Nat) (wf : GatherDims.WF ⟨2, ![N, M]⟩ ⟨2, ![E, 1]⟩ ⟨2, ![E, M]⟩ [1] [0] [] [0] [] 1 ![1, M]) :
    GatherDims ⟨2, ![N, M]⟩ ⟨2, ![E, 1]⟩ ⟨2, ![E, M]⟩ where
  offsetDims := [1]
  collapsedSliceDims := [0]
  operandBatchingDims := []
  startIndicesBatchingDims := []
  startIndexMap := [0]
  indexVectorDim := 1
  sliceSizes := ![1, M]
  wf := wf

/-- The gather of `rowDims` read at `(e, k)`: on the row axis the start is the index word of `e` read signed and clamped
    into `[0, N - 1]`, with no offset; on the column axis the start is 0 and the offset coordinate is `k`. -/
theorem gather_rows_apply {N M E w : Nat} {α : Type} (hN : 0 < N)
    (wf : GatherDims.WF ⟨2, ![N, M]⟩ ⟨2, ![E, 1]⟩ ⟨2, ![E, M]⟩ [1] [0] [] [0] [] 1 ![1, M])
    (x : (⟨2, ![N, M]⟩ : Shape).Idx → α) (idx : IVec ⟨2, ![E, 1]⟩ w) (e : Fin E) (k : Fin M) :
    Host.gather (rowDims N M E wf) x idx (ix2 e k) =
      x (ix2 ⟨min (idx (ix2 e (0 : Fin 1))).toInt.toNat (N - 1), by omega⟩ k) := by
  unfold Host.gather
  congr 1
  funext a
  refine Fin.ext ?_
  match a with
  | ⟨0, _⟩ =>
    show (rowDims N M E wf).start (ix2 e k) idx 0 + (rowDims N M E wf).batchCoord (ix2 e k) 0
      + (rowDims N M E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M E wf).startIndexMap from List.mem_singleton.mpr rfl)]
    have hsi : (rowDims N M E wf).siIdx (ix2 e k) ⟨List.idxOf (0 : Fin 2) (rowDims N M E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M E wf).start (ix2 e k) idx 1 + (rowDims N M E wf).batchCoord (ix2 e k) 1
      + (rowDims N M E wf).offCoord (ix2 e k) 1 = k.val
    have hs : (rowDims N M E wf).start (ix2 e k) idx 1 = 0 := by
      unfold GatherDims.start
      refine dif_neg ?_
      show ¬ (1 : Fin 2) ∈ ([0] : List (Fin 2))
      decide
    have ho : (rowDims N M E wf).offCoord (ix2 e k) 1 = k.val := by
      unfold GatherDims.offCoord
      have h : (1 : Fin 2) ∈ (rowDims N M E wf).sKept := by
        refine (GatherDims.mem_sKept (rowDims N M E wf) 1).2 ⟨?_, List.not_mem_nil⟩
        show ¬ (1 : Fin 2) ∈ ([0] : List (Fin 2))
        decide
      rw [dif_pos h]
      rfl
    rw [GatherDims.batchCoord_eq_zero _ _ _ List.not_mem_nil, hs, ho]
    omega

/-- Rows of a matrix, read at `(e, k)`. -/
theorem gather_rows_apply_of_fields {N M E w : Nat} {α : Type} (hN : 0 < N)
    (d : GatherDims ⟨2, ![N, M]⟩ ⟨2, ![E, 1]⟩ ⟨2, ![E, M]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, M])
    (x : (⟨2, ![N, M]⟩ : Shape).Idx → α) (idx : IVec ⟨2, ![E, 1]⟩ w) (e : Fin E) (k : Fin M) :
    Host.gather d x idx (ix2 e k) = x (ix2 ⟨min (idx (ix2 e (0 : Fin 1))).toInt.toNat (N - 1), by omega⟩ k) := by
  obtain ⟨od, cs, ob, sb, sm, iv, ss, wf⟩ := d
  dsimp only at hod hcs hob hsb hsm hiv hss
  subst hod hcs hob hsb hsm hiv hss
  exact gather_rows_apply hN wf x idx e k

end Cert.GatherRows
-- ==== Proof.AggregateAt.lean ====
/-
  The aggregation step of a graph convolution, read at one entry over the extended reals.

  The step gathers, for every edge, the row of a node-feature matrix at the edge's source node, scales that row by the
  edge's weight (a per-edge column broadcast along the feature axis), and adds the scaled rows into the rows of an
  operand matrix at the edges' target nodes. Read at entry `(n, k)` the result is the operand's entry plus the sum,
  over the edges landing on node `n`, of the feature matrix's entry `(source of e, k)` times the weight of `e`.
  Stated over a variable feature width and any dimension-number records with the fields of a row scatter and a row
  gather, so the same statement serves every width at which the step is used.
-/
import Idealize.ShloMosaic.PureOps.Ideal
import Idealize.ShloMosaic.Lib.ValueIdx
import proofs.«105954_j32255204393505_2_alg».proof.Proof.GraphConv
import proofs.«105954_j32255204393505_2_alg».proof.Proof.LibScatterRows
import proofs.«105954_j32255204393505_2_alg».proof.Proof.LibGatherRows

noncomputable section

open scoped BigOperators

namespace Cert.GraphConv

open Idealize.ShloMosaic Idealize.ShloMosaic.ValueIdx

/-- The aggregation at entry `(n, k)`: the scatter-add, by the target words `cidx`, of the rows gathered by the source
    words `ridx` and scaled by the per-edge weight column `W` (broadcast along the feature axis as `B`), is the
    operand's entry plus the weighted sum over the edges landing on `n`. -/
theorem aggregate_apply {M : Nat} {φ : FTy}
    (ds : ScatterDims ⟨2, ![50000, M]⟩ ⟨2, ![800000, 1]⟩ ⟨2, ![800000, M]⟩)
    (huw : ds.updateWindowDims = [1]) (hiw : ds.insertedWindowDims = [0])
    (hsd : ds.scatterDimsToOperandDims = [0]) (hiv : ds.indexVectorDim = 1)
    (dg : GatherDims ⟨2, ![50000, M]⟩ ⟨2, ![800000, 1]⟩ ⟨2, ![800000, M]⟩)
    (hod : dg.offsetDims = [1]) (hcs : dg.collapsedSliceDims = [0]) (hob : dg.operandBatchingDims = [])
    (hsb : dg.startIndicesBatchingDims = []) (hsm : dg.startIndexMap = [0]) (hgv : dg.indexVectorDim = 1)
    (hss : dg.sliceSizes = ![1, M])
    (Z : FVec Ideal ⟨2, ![50000, M]⟩ φ) (cidx ridx : IVec Words 32)
    (H : FVec Ideal ⟨2, ![50000, M]⟩ φ) (B : FVec Ideal ⟨2, ![800000, M]⟩ φ) (W : FVec Ideal Words φ)
    (hB : ∀ (e : Fin 800000) (k : Fin M), B (ix2 e k) = W (ix2 e (0 : Fin 1)))
    (n : Fin 50000) (k : Fin M) :
    Host.scatterAdd (F := Ideal) ds Z cidx (mulf (Host.gather dg H ridx) B) (ix2 n k)
      = Z (ix2 n k) + ∑ e ∈ landing cidx n, H (ix2 (source ridx e) k) * W (ix2 e (0 : Fin 1)) := by
  refine (Cert.ScatterRows.scatterAdd_rows_apply_of_fields ds huw hiw hsd hiv Z cidx
    (mulf (Host.gather dg H ridx) B) n k).trans ?_
  refine congrArg (fun t => Z (ix2 n k) + t) ?_
  refine Finset.sum_congr rfl ?_
  intro e _
  refine (mulf_apply (Host.gather dg H ridx) B (ix2 e k)).trans ?_
  rw [hB e k,
    Cert.GatherRows.gather_rows_apply_of_fields (by omega) dg hod hcs hob hsb hsm hgv hss H ridx e k]
  rfl

end Cert.GraphConv

end
-- ==== Proof.LibColumnLayout.lean ====
/-
  Column (keepdims) layout operations read at an index given by coordinates: a vector `[a]` cast to the column
  `[a, 1]`, and a column `[a, 1]` broadcast along its unit axis to `[a, b]`. Companions of the leading-unit-axis casts
  and the row broadcast `[1, b] → [a, b]`: each is the general read-at-an-index lemma of the operation with both indices
  written by coordinates and the coordinates' arithmetic discharged.
-/
import Idealize.ShloMosaic.Lib.ValueIdx
import Idealize.ShloMosaic.Lib.ValueLayout
import Idealize.ShloMosaic.Lib.Pipeline.Value

namespace Cert.ColumnLayout

open Idealize.ShloMosaic Idealize.ShloMosaic.ValueIdx

variable {α : Type}

/-- An `[a]` array cast to the column `[a, 1]` reads, at `(i, u)`, the operand at `i`, whatever the unit coordinate
`u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's one entry of row `p`: the broadcast
keeps the coordinate of the non-unit axis and puts `0` on the unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.ColumnLayout
-- ==== Proof.KernelLayout.lean ====
/-
  Small reads of the kernel program's host-side layout operations, each at one entry given by coordinates, over
  variable arrays and the extended reals.

  The kernel program packs the two output heads side by side: it concatenates the two heads' weight matrices along
  the column axis and their biases end to end, computes one 128-wide convolution, and slices its two 64-wide halves
  back out. Column `j` of the first head is column `j` of the packed matrix, column `j` of the second is column
  `j + 64`. Beside these: the narrowing format change is the identity on extended reals, a vector cast to a column or
  to a row reads the vector, and the aggregation step (gather by the source words, scale by the per-edge weights,
  scatter-add by the target words) is the weighted sum over the landing edges.
-/
import proofs.«105954_j32255204393505_2_alg».proof.KernelIdeal
import proofs.«105954_j32255204393505_2_alg».proof.Proof.Gen.ReferenceIdeal.Read
import proofs.«105954_j32255204393505_2_alg».proof.Proof.AggregateAt
import proofs.«105954_j32255204393505_2_alg».proof.Proof.LibColumnLayout
import Idealize.ShloMosaic.Lib.Pipeline.Value
import Idealize.ShloMosaic.Lib.ValueIdx
import Idealize.ShloMosaic.Lib.ValueLayout

noncomputable section

open scoped BigOperators

namespace Cert.KernelIdeal.Layout

open Idealize.ShloMosaic Idealize.ShloMosaic.ValueIdx Cert.KernelIdeal Cert.GraphConv

variable [Facts₀]
open Facts₀

/-- Column `j` of the first head, as a column of the packed 128-wide matrix. -/
def lcol (j : Fin 64) : Fin 128 := ⟨j.val, by omega⟩
/-- Column `j` of the second head, as a column of the packed 128-wide matrix. -/
def rcol (j : Fin 64) : Fin 128 := ⟨j.val + 64, by omega⟩

/-! ## The format change, and a vector as a column or a row -/

/-- The narrowing to bf16 is the identity on extended reals. -/
theorem trunc_at {s : Shape} (x : FVec Ideal s .f32) (i : s.Idx) :
    truncf .bf16 x bitsLt_bf16_f32 i = x i := rfl

/-- A node vector cast to a column reads, at `(n, 0)`, the vector at `n`. -/
theorem dis2col_at (v : FVec Ideal S50000 .f32) (n : Fin 50000) :
    shapeCast S50000x1 v shapeCasts_S50000_S50000x1 (ix2 n (0 : Fin 1)) = v (ix1 n) :=
  Cert.ColumnLayout.shapeCast_a_a1_apply v shapeCasts_S50000_S50000x1 n 0

/-- A bias vector cast to a row reads, at `(0, k)`, the vector at `k`. -/
theorem biasrow_at (v : FVec Ideal S128 .f32) (k : Fin 128) :
    shapeCast S1x128 v shapeCasts_S128_S1x128 (ix2 (0 : Fin 1) k) = v (ix1 k) :=
  shapeCast_apply v shapeCasts_S128_S1x128 _ _ (by
    rw [Shape.rowMajor_val_two, Shape.rowMajor_val_one]
    show k.val = 0 * 128 + k.val
    omega)

/-! ## The packed weights and biases -/

/-- The packed weight matrix at a first-head column is the first head's weights. -/
theorem wcat_left (a b : FVec Ideal S128x64 .f32) (k : Fin 128) (j : Fin 64) :
    concatenate S128x128 1 [⟨S128x64, a⟩, ⟨S128x64, b⟩] concatenates_S128x64_S128x64_S128x128_d1 (ix2 k (lcol j))
      = a (ix2 k j) :=
  concatenate_pair_apply_left (1 : Fin S128x128.rank) a b concatenates_S128x64_S128x64_S128x128_d1
    (ix2 k (lcol j)) rfl (ix2 k j) (fun c => by match c with | ⟨0, _⟩ => rfl | ⟨1, _⟩ => rfl)

/-- The packed weight matrix at a second-head column is the second head's weights. -/
theorem wcat_right (a b : FVec Ideal S128x64 .f32) (k : Fin 128) (j : Fin 64) :
    concatenate S128x128 1 [⟨S128x64, a⟩, ⟨S128x64, b⟩] concatenates_S128x64_S128x64_S128x128_d1 (ix2 k (rcol j))
      = b (ix2 k j) :=
  concatenate_pair_apply_right (1 : Fin S128x128.rank) a b concatenates_S128x64_S128x64_S128x128_d1
    (ix2 k (rcol j)) rfl rfl (ix2 k j)
    (fun c hc => by match c, hc with | ⟨0, _⟩, _ => rfl | ⟨1, _⟩, hc => exact absurd rfl hc)
    rfl

/-- The packed bias at a first-head position is the first head's bias. -/
theorem bcat_left (a b : FVec Ideal S64 .f32) (j : Fin 64) :
    concatenate S128 0 [⟨S64, a⟩, ⟨S64, b⟩] concatenates_S64_S64_S128_d0 (ix1 (lcol j)) = a (ix1 j) :=
  concatenate_pair_apply_left (0 : Fin S128.rank) a b concatenates_S64_S64_S128_d0
    (ix1 (lcol j)) rfl (ix1 j) (fun c => by match c with | ⟨0, _⟩ => rfl)

/-- The packed bias at a second-head position is the second head's bias. -/
theorem bcat_right (a b : FVec Ideal S64 .f32) (j : Fin 64) :
    concatenate S128 0 [⟨S64, a⟩, ⟨S64, b⟩] concatenates_S64_S64_S128_d0 (ix1 (rcol j)) = b (ix1 j) :=
  concatenate_pair_apply_right (0 : Fin S128.rank) a b concatenates_S64_S64_S128_d0
    (ix1 (rcol j)) rfl rfl (ix1 j)
    (fun c hc => by match c, hc with | ⟨0, _⟩, hc => exact absurd rfl hc)
    rfl

/-! ## The two halves of the packed result -/

/-- The left half of the packed result at `(n, j)` is the packed result at the first head's column `j`. -/
theorem slice_left (X : FVec Ideal S50000x128 .f32) (n : Fin 50000) (j : Fin 64) :
    extractStridedSlice S50000x64 ![0, 0] X slices_S50000x128_S50000x64_0_0 (ix2 n j) = X (ix2 n (lcol j)) :=
  extractStridedSlice_apply ![0, 0] X slices_S50000x128_S50000x64_0_0 (ix2 n j) (ix2 n (lcol j)) (fun c => match c with
    | ⟨0, _⟩ => by show n.val = 0 + n.val; omega
    | ⟨1, _⟩ => by show j.val = 0 + j.val; omega)

/-- The right half of the packed result at `(n, j)` is the packed result at the second head's column `j`. -/
theorem slice_right (X : FVec Ideal S50000x128 .f32) (n : Fin 50000) (j : Fin 64) :
    extractStridedSlice S50000x64 ![0, 64] X slices_S50000x128_S50000x64_0_64 (ix2 n j) = X (ix2 n (rcol j)) :=
  extractStridedSlice_apply ![0, 64] X slices_S50000x128_S50000x64_0_64 (ix2 n j) (ix2 n (rcol j)) (fun c => match c with
    | ⟨0, _⟩ => by show n.val = 0 + n.val; omega
    | ⟨1, _⟩ => by show j.val + 64 = 64 + j.val; omega)

/-! ## The aggregation step -/

section Aggregation
open Cert.ReferenceIdeal.Read

/-- The per-edge weight column broadcast along the feature axis reads row `e`. -/
theorem idx_norm (e : Fin 800000) (k : Fin 128) : idx_main_v35 (ix2 e k) = ix2 e (0 : Fin 1) :=
  funext fun a => by match a with | ⟨0, _⟩ => rfl | ⟨1, _⟩ => rfl

/-- The aggregation of a feature matrix `H` at entry `(n, k)`: the zero entry plus the sum, over the edges landing
    on `n`, of `H` at the edge's source node times the edge's weight. The edge words and weights are the arrays
    the host chain computes from the edge list, carried opaquely. -/
theorem agg_at (x1 : (⟨Cert.ReferenceIdeal.S2x800000, .i32⟩ : BufTy).Contents (Elt Ideal))
    (H : FVec Ideal S50000x128 .f32) (n : Fin 50000) (k : Fin 128) :
    Host.scatterAdd (F := Ideal) scatter_S50000x128_S800000x1_S800000x128_1_0_0_1
        (Cert.ReferenceIdeal.Read.val_main_v37 (F := Ideal)) (Cert.ReferenceIdeal.Read.val_main_v38 (F := Ideal) x1)
        (mulf (Host.gather gather_S50000x128_S800000x1_S800000x128_1_0_n_n_0_1_1128 H
            (Cert.ReferenceIdeal.Read.val_main_v32 (F := Ideal) x1))
          (Cert.ReferenceIdeal.Read.val_main_v35 (F := Ideal) x1)) (ix2 n k)
      = Ideal.ofBits .f32 0x00000000#32
        + ∑ e ∈ landing (val_main_v38 (F := Ideal) x1) n,
            H (ix2 (source (val_main_v32 (F := Ideal) x1) e) k) * val_main_v34 (F := Ideal) x1 (ix2 e (0 : Fin 1)) := by
  refine (aggregate_apply scatter_S50000x128_S800000x1_S800000x128_1_0_0_1 rfl rfl rfl rfl
    gather_S50000x128_S800000x1_S800000x128_1_0_n_n_0_1_1128 rfl rfl rfl rfl rfl rfl rfl
    (val_main_v37 (F := Ideal)) (val_main_v38 (F := Ideal) x1) (val_main_v32 (F := Ideal) x1)
    H (val_main_v35 (F := Ideal) x1) (val_main_v34 (F := Ideal) x1) ?_ n k).trans ?_
  · intro e k'
    rw [val_main_v35_apply, idx_norm]
  · rw [val_main_v37_apply] <;> rfl

end Aggregation

end Cert.KernelIdeal.Layout

end
-- ==== Proof.KernelValue.lean ====
/-
  The idealized kernel program's two results, entry by entry.

  The first dense region leaves the product x · W1 and its self term (x · W1) · dis² + b1; the host aggregates the
  product's rows over the edges and adds the self term, and clamps the sum from below: that is the specification's hidden
  layer. The second dense region multiplies the hidden layer by the two output weights laid side by side, so column j of
  its left half is the product with the first weight's column j and column j of its right half the product with the
  second's; its self term carries the two biases end to end. The host aggregates again, adds the self term, and cuts the
  two halves apart: each half, entry by entry, is the specification's output head for its weight and bias.
-/
import proofs.«105954_j32255204393505_2_alg».proof.Proof.HostFold
import proofs.«105954_j32255204393505_2_alg».proof.Proof.DenseBlocks0
import proofs.«105954_j32255204393505_2_alg».proof.Proof.DenseBlocks1
import proofs.«105954_j32255204393505_2_alg».proof.Proof.KernelLayout

noncomputable section

open scoped BigOperators

namespace Cert.KernelIdeal.Conv

open Cert.KernelIdeal Cert.KernelIdeal.Gen Cert.KernelIdeal.Fold Cert.KernelIdeal.Dense Cert.KernelIdeal.Layout
open Cert.GraphConv Cert.ReferenceIdeal.Read
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The edge array as launched. -/
abbrev edges : (⟨Cert.ReferenceIdeal.S2x800000, .i32⟩ : BufTy).Contents (Elt Ideal) := m ((c : Thread nD τ).loc main_arg1)

/-- The argument arrays as launched, as functions of an index into the extended reals. -/
abbrev argX : S50000x256.Idx → EReal := m ((c : Thread nD τ).loc main_arg0)
abbrev argW1 : S256x128.Idx → EReal := m ((c : Thread nD τ).loc main_arg2)
abbrev argB1 : S128.Idx → EReal := m ((c : Thread nD τ).loc main_arg3)
abbrev argWa : S128x64.Idx → EReal := m ((c : Thread nD τ).loc main_arg4)
abbrev argBa : S64.Idx → EReal := m ((c : Thread nD τ).loc main_arg5)
abbrev argWb : S128x64.Idx → EReal := m ((c : Thread nD τ).loc main_arg6)
abbrev argBb : S64.Idx → EReal := m ((c : Thread nD τ).loc main_arg7)
/-- The two output weights side by side, and the two output biases end to end. -/
abbrev catW : S128x128.Idx → EReal :=
  concatenate S128x128 1 [⟨S128x64, m ((c : Thread nD τ).loc main_arg4)⟩, ⟨S128x64, m ((c : Thread nD τ).loc main_arg6)⟩]
    concatenates_S128x64_S128x64_S128x128_d1
abbrev catB : S128.Idx → EReal :=
  concatenate S128 0 [⟨S64, m ((c : Thread nD τ).loc main_arg5)⟩, ⟨S64, m ((c : Thread nD τ).loc main_arg7)⟩]
    concatenates_S64_S64_S128_d0
/-- The hidden layer as the second region finds it. -/
def hid : S50000x128.Idx → EReal := W5 m ρ c (Proc.devRef .tc main_v45)
/-- The two regions' results. -/
abbrev prod1 : S50000x128.Idx → EReal := (dat0 (F := Ideal) (V1 m ρ) c).arrAt 4 cfg0.N
abbrev self1 : S50000x128.Idx → EReal := (dat0 (F := Ideal) (V1 m ρ) c).arrAt 5 cfg0.N
abbrev prod2 : S50000x128.Idx → EReal := (dat1 (F := Ideal) (V5 m ρ) c).arrAt 4 cfg1.N
abbrev self2 : S50000x128.Idx → EReal := (dat1 (F := Ideal) (V5 m ρ) c).arrAt 5 cfg1.N
/-- The two results as the last segment leaves them. -/
abbrev outA : S50000x64.Idx → EReal := W7 m ρ c (Proc.devRef .tc main_v64)
abbrev outB : S50000x64.Idx → EReal := W7 m ρ c (Proc.devRef .tc main_v65)

theorem catW_left (k : Fin 128) (j : Fin 64) : catW m c (ix2 k (lcol j)) = argWa m c (ix2 k j) := wcat_left _ _ k j
theorem catW_right (k : Fin 128) (j : Fin 64) : catW m c (ix2 k (rcol j)) = argWb m c (ix2 k j) := wcat_right _ _ k j
theorem catB_left (j : Fin 64) : catB m c (ix1 (lcol j)) = argBa m c (ix1 j) := bcat_left _ _ j
theorem catB_right (j : Fin 64) : catB m c (ix1 (rcol j)) = argBb m c (ix1 j) := bcat_right _ _ j

/-! ## Layer 1 -/

/-- The first region's weight operand is W1: narrowing to the shorter float format is the identity on exact values. -/
theorem V1_weight : V1 m ρ c main_v29 = argW1 m c := (W1_v29 m ρ c).trans (funext fun i => trunc_at _ i)

/-- The first region's product at an entry: `(x · W1) (a, k)`. -/
theorem prod1_at (a : Fin 50000) (k : Fin 128) :
    prod1 m ρ c (ix2 a k) = ∑ i : Fin 256, argX m c (ix2 a i) * argW1 m c (ix2 i k) :=
  region0_prod (V1 m ρ) c (argX m c) (argW1 m c) (W1_arg0 m ρ c) (V1_weight m ρ c) a k

/-- The first region's self term at an entry: the product's entry times dis² of the node, plus the bias entry. -/
theorem self1_at (n : Fin 50000) (k : Fin 128) :
    self1 m ρ c (ix2 n k)
      = (∑ i : Fin 256, argX m c (ix2 n i) * argW1 m c (ix2 i k)) * val_main_v40 (F := Ideal) (edges m c) (ix1 n)
        + argB1 m c (ix1 k) := by
  refine (region0_self (V1 m ρ) c (argX m c) (argW1 m c) _ _ (W1_arg0 m ρ c) (V1_weight m ρ c) (W1_v28 m ρ c)
    (W1_v30 m ρ c) n k).trans ?_
  rw [dis2col_at, biasrow_at]

/-- The hidden layer, entry by entry, is the specification's. -/
theorem hidden_at (n : Fin 50000) (k : Fin 128) :
    hid m ρ c (ix2 n k)
      = hidden (Ideal.ofBits .f32 0x00000000#32) (Ideal.ofBits .f32 0x00000000#32)
          (val_main_v38 (F := Ideal) (edges m c)) (val_main_v32 (F := Ideal) (edges m c)) (val_main_v34 (F := Ideal) (edges m c))
          (fun n' => val_main_v40 (F := Ideal) (edges m c) (ix1 n'))
          (fun a b => argX m c (ix2 a b)) (fun a b => argW1 m c (ix2 a b)) (fun a => argB1 m c (ix1 a)) n k := by
  unfold hid
  rw [W5_v45, W4_v45, W3_v44]
  refine (maximumf_apply _ _ _).trans ?_
  rw [val_main_call0_v0_apply, val_main_call0_cst_apply]
  rw [addf_apply, agg_at]
  show max (Ideal.ofBits .f32 0x00000000#32
      + ∑ e ∈ landing (val_main_v38 (F := Ideal) (edges m c)) n,
          prod1 m ρ c (ix2 (source (val_main_v32 (F := Ideal) (edges m c)) e) k) * val_main_v34 (F := Ideal) (edges m c) (ix2 e (0 : Fin 1))
      + self1 m ρ c (ix2 n k)) _ = _
  rw [self1_at]
  simp only [prod1_at]
  rfl

/-! ## Layer 2 -/

/-- The second region's weight operand: the two output weights side by side (the narrowing is the identity). -/
theorem V5_weight : V5 m ρ c main_v49 = catW m c := (W5_v49 m ρ c).trans (funext fun i => trunc_at _ i)

/-- The squared inverse root degree column as the second region finds it. -/
theorem V5_dis2 : V5 m ρ c main_v28
    = shapeCast S50000x1 (val_main_v40 (F := Ideal) (edges m c)) shapeCasts_S50000_S50000x1 :=
  (W5_v28 m ρ c).trans (W1_v28 m ρ c)

/-- The second region's bias row: the two output biases end to end. -/
theorem V5_bias : V5 m ρ c main_v48 = shapeCast S1x128 (catB m c) shapeCasts_S128_S1x128 := W5_v48 m ρ c

/-- The second region's product, left half, at an entry: the hidden layer's row times the first weight's column. -/
theorem prod2_left (a : Fin 50000) (j : Fin 64) :
    prod2 m ρ c (ix2 a (lcol j)) = ∑ k : Fin 128, hid m ρ c (ix2 a k) * argWa m c (ix2 k j) := by
  refine (region1_prod (V5 m ρ) c (hid m ρ c) (catW m c) rfl (V5_weight m ρ c) a (lcol j)).trans ?_
  exact Finset.sum_congr (M := EReal) rfl fun k _ => by rw [catW_left]

/-- The second region's product, right half. -/
theorem prod2_right (a : Fin 50000) (j : Fin 64) :
    prod2 m ρ c (ix2 a (rcol j)) = ∑ k : Fin 128, hid m ρ c (ix2 a k) * argWb m c (ix2 k j) := by
  refine (region1_prod (V5 m ρ) c (hid m ρ c) (catW m c) rfl (V5_weight m ρ c) a (rcol j)).trans ?_
  exact Finset.sum_congr (M := EReal) rfl fun k _ => by rw [catW_right]

/-- The second region's self term, left half. -/
theorem self2_left (n : Fin 50000) (j : Fin 64) :
    self2 m ρ c (ix2 n (lcol j))
      = (∑ k : Fin 128, hid m ρ c (ix2 n k) * argWa m c (ix2 k j)) * val_main_v40 (F := Ideal) (edges m c) (ix1 n)
        + argBa m c (ix1 j) := by
  refine (region1_self (V5 m ρ) c (hid m ρ c) (catW m c) _ _ rfl (V5_weight m ρ c) (V5_dis2 m ρ c) (V5_bias m ρ c)
    n (lcol j)).trans ?_
  rw [dis2col_at, biasrow_at, catB_left,
    show (∑ k : Fin 128, hid m ρ c (ix2 n k) * catW m c (ix2 k (lcol j)))
        = ∑ k : Fin 128, hid m ρ c (ix2 n k) * argWa m c (ix2 k j)
      from Finset.sum_congr rfl fun k _ => by rw [catW_left]]

/-- The second region's self term, right half. -/
theorem self2_right (n : Fin 50000) (j : Fin 64) :
    self2 m ρ c (ix2 n (rcol j))
      = (∑ k : Fin 128, hid m ρ c (ix2 n k) * argWb m c (ix2 k j)) * val_main_v40 (F := Ideal) (edges m c) (ix1 n)
        + argBb m c (ix1 j) := by
  refine (region1_self (V5 m ρ) c (hid m ρ c) (catW m c) _ _ rfl (V5_weight m ρ c) (V5_dis2 m ρ c) (V5_bias m ρ c)
    n (rcol j)).trans ?_
  rw [dis2col_at, biasrow_at, catB_right,
    show (∑ k : Fin 128, hid m ρ c (ix2 n k) * catW m c (ix2 k (rcol j)))
        = ∑ k : Fin 128, hid m ρ c (ix2 n k) * argWb m c (ix2 k j)
      from Finset.sum_congr rfl fun k _ => by rw [catW_right]]

/-- THE FIRST RESULT, entry by entry, is the specification's head for the first output weight and bias. -/
theorem mu_at (n : Fin 50000) (j : Fin 64) :
    outA m ρ c (ix2 n j)
      = head (Ideal.ofBits .f32 0x00000000#32) (Ideal.ofBits .f32 0x00000000#32)
          (val_main_v38 (F := Ideal) (edges m c)) (val_main_v32 (F := Ideal) (edges m c)) (val_main_v34 (F := Ideal) (edges m c))
          (fun n' => val_main_v40 (F := Ideal) (edges m c) (ix1 n'))
          (fun a b => argX m c (ix2 a b)) (fun a b => argW1 m c (ix2 a b)) (fun a => argB1 m c (ix1 a))
          (fun a b => argWa m c (ix2 a b)) (fun a => argBa m c (ix1 a)) n j := by
  unfold outA
  rw [W7_v64, slice_left]
  unfold layer2
  refine (addf_apply _ _ _).trans ?_
  rw [agg_at]
  show Ideal.ofBits .f32 0x00000000#32
      + ∑ e ∈ landing (val_main_v38 (F := Ideal) (edges m c)) n,
          prod2 m ρ c (ix2 (source (val_main_v32 (F := Ideal) (edges m c)) e) (lcol j)) * val_main_v34 (F := Ideal) (edges m c) (ix2 e (0 : Fin 1))
      + self2 m ρ c (ix2 n (lcol j)) = _
  rw [self2_left]
  simp only [prod2_left, hidden_at]
  rfl

/-- THE SECOND RESULT, entry by entry, is the specification's head for the second output weight and bias. -/
theorem logstd_at (n : Fin 50000) (j : Fin 64) :
    outB m ρ c (ix2 n j)
      = head (Ideal.ofBits .f32 0x00000000#32) (Ideal.ofBits .f32 0x00000000#32)
          (val_main_v38 (F := Ideal) (edges m c)) (val_main_v32 (F := Ideal) (edges m c)) (val_main_v34 (F := Ideal) (edges m c))
          (fun n' => val_main_v40 (F := Ideal) (edges m c) (ix1 n'))
          (fun a b => argX m c (ix2 a b)) (fun a b => argW1 m c (ix2 a b)) (fun a => argB1 m c (ix1 a))
          (fun a b => argWb m c (ix2 a b)) (fun a => argBb m c (ix1 a)) n j := by
  unfold outB
  rw [W7_v65, slice_right]
  unfold layer2
  refine (addf_apply _ _ _).trans ?_
  rw [agg_at]
  show Ideal.ofBits .f32 0x00000000#32
      + ∑ e ∈ landing (val_main_v38 (F := Ideal) (edges m c)) n,
          prod2 m ρ c (ix2 (source (val_main_v32 (F := Ideal) (edges m c)) e) (rcol j)) * val_main_v34 (F := Ideal) (edges m c) (ix2 e (0 : Fin 1))
      + self2 m ρ c (ix2 n (rcol j)) = _
  rw [self2_right]
  simp only [prod2_right, hidden_at]
  rfl

end Cert.KernelIdeal.Conv

end
-- ==== Proof.ReferenceHidden.lean ====
/-
  The reference's hidden layer, read at one entry.

  The reference computes  hidden = max (conv (x · W1) + b1) 0  one operation at a time: the product x · W1, the
  gather of its rows at the edges' source nodes, the scaling by the per-edge weight column, the scatter-add into a
  zero matrix at the edges' target nodes, the self term (x · W1) · dis², the bias, and the rectifier. Read at entry
  (n, k), that chain is the specification's `hidden` at (n, k), with the edge words, the per-edge weights and dis²
  carried as the opaque arrays the reference computes from the edge list.
-/
import proofs.«105954_j32255204393505_2_alg».proof.Proof.Gen.ReferenceIdeal.Read
import proofs.«105954_j32255204393505_2_alg».proof.Proof.AggregateAt

noncomputable section

open scoped BigOperators

namespace Cert.ReferenceIdeal.Spec

open Idealize.ShloMosaic Idealize.ShloMosaic.ValueIdx Cert.ReferenceIdeal Cert.ReferenceIdeal.Read Cert.GraphConv

variable (x0 : (⟨S50000x256, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))

/-! ## Indices: the composed index functions of the broadcasts, by coordinates -/

/-- The dis² column broadcast along the feature axis reads row `n`. -/
theorem idx_dis2_128 (n : Fin 50000) (k : Fin 128) : idx_main_v41 (idx_main_v42 (ix2 n k)) = ix1 n :=
  funext fun a => by match a with | ⟨0, _⟩ => rfl

/-- The bias row broadcast along the node axis reads column `k`. -/
theorem idx_bias_128 (n : Fin 50000) (k : Fin 128) : idx_main_v45 (idx_main_v46 (ix2 n k)) = ix1 k :=
  funext fun a => by match a with | ⟨0, _⟩ => rfl

/-- The per-edge weight column broadcast along the feature axis reads row `e`. -/
theorem idx_norm_128 (e : Fin 800000) (k : Fin 128) : idx_main_v35 (ix2 e k) = ix2 e (0 : Fin 1) :=
  funext fun a => by match a with | ⟨0, _⟩ => rfl | ⟨1, _⟩ => rfl

/-! ## The product x · W1 at an entry -/

/-- `(x · W1) (m, k) = Σᵢ x (m, i) · W1 (i, k)`. -/
theorem xw_at (m : Fin 50000) (k : Fin 128) :
    val_main_v4 (F := Ideal) x0 x2 (ix2 m k) = ∑ i : Fin 256, x0 (ix2 m i) * x2 (ix2 i k) := by
  rw [val_main_v4_apply]
  refine Finset.sum_congr rfl fun i _ => ?_
  have el : lidx_main_v4 (ix2 m k) i = ix2 m i :=
    funext fun a => by match a with | ⟨0, _⟩ => rfl | ⟨1, _⟩ => rfl
  have er : ridx_main_v4 (ix2 m k) i = ix2 i k :=
    funext fun a => by match a with | ⟨0, _⟩ => rfl | ⟨1, _⟩ => rfl
  rw [el, er]

/-! ## The aggregation, the self term, and the layer -/

/-- The scatter-add of the gathered, scaled rows of x · W1 into the zero matrix, at entry `(n, k)`. -/
theorem agg1_at (n : Fin 50000) (k : Fin 128) :
    val_main_v39 (F := Ideal) x0 x1 x2 (ix2 n k)
      = Ideal.ofBits .f32 0x00000000#32
        + ∑ e ∈ landing (val_main_v38 (F := Ideal) x1) n,
            val_main_v4 (F := Ideal) x0 x2 (ix2 (source (val_main_v32 (F := Ideal) x1) e) k)
              * val_main_v34 (F := Ideal) x1 (ix2 e (0 : Fin 1)) := by
  unfold val_main_v39 val_main_v36 val_main_v33
  refine (aggregate_apply scatter_S50000x128_S800000x1_S800000x128_1_0_0_1 rfl rfl rfl rfl
    gather_S50000x128_S800000x1_S800000x128_1_0_n_n_0_1_1128 rfl rfl rfl rfl rfl rfl rfl
    (val_main_v37 (F := Ideal)) (val_main_v38 (F := Ideal) x1) (val_main_v32 (F := Ideal) x1)
    (val_main_v4 (F := Ideal) x0 x2) (val_main_v35 (F := Ideal) x1) (val_main_v34 (F := Ideal) x1) ?_ n k).trans ?_
  · intro e k'
    rw [val_main_v35_apply, idx_norm_128]
  · rw [val_main_v37_apply] <;> rfl

/-- The self term at entry `(n, k)`: the product's entry times dis² of the node. -/
theorem self1_at (n : Fin 50000) (k : Fin 128) :
    val_main_v43 (F := Ideal) x0 x1 x2 (ix2 n k)
      = val_main_v4 (F := Ideal) x0 x2 (ix2 n k) * val_main_v40 (F := Ideal) x1 (ix1 n) := by
  rw [val_main_v43_apply, Ideal.mulf_def, val_main_v42_apply, val_main_v41_apply, idx_dis2_128]

/-- THE HIDDEN LAYER at entry `(n, k)` is the specification's `hidden`. -/
theorem ref_hidden (n : Fin 50000) (k : Fin 128) :
    val_main_v48 (F := Ideal) x0 x1 x2 x3 (ix2 n k)
      = hidden (Ideal.ofBits .f32 0x00000000#32) (Ideal.ofBits .f32 0x00000000#32)
          (val_main_v38 (F := Ideal) x1) (val_main_v32 (F := Ideal) x1) (val_main_v34 (F := Ideal) x1)
          (fun n' => val_main_v40 (F := Ideal) x1 (ix1 n'))
          (fun a b => x0 (ix2 a b)) (fun a b => x2 (ix2 a b)) (fun a => x3 (ix1 a)) n k := by
  rw [val_main_v48_apply, Ideal.maximumf_def, val_main_call0_v0_apply, val_main_call0_cst_apply, Ideal.ofBits_def,
    val_main_v47_apply, Ideal.addf_def, val_main_v46_apply, val_main_v45_apply, idx_bias_128,
    val_main_v44_apply, Ideal.addf_def, agg1_at, self1_at]
  simp only [xw_at]
  exact congrArg (fun t => max t (Ideal.ofBits .f32 0x00000000#32))
    (convCol_assoc (Ideal.ofBits .f32 0x00000000#32) (val_main_v38 (F := Ideal) x1) (val_main_v32 (F := Ideal) x1)
      (val_main_v34 (F := Ideal) x1) (fun n' => val_main_v40 (F := Ideal) x1 (ix1 n'))
      (fun n' => ∑ i : Fin 256, x0 (ix2 n' i) * x2 (ix2 i k)) (x3 (ix1 k)) n)

end Cert.ReferenceIdeal.Spec

end
-- ==== Proof.ReferenceSpec.lean ====
/-
  The reference's two outputs, read at one entry.

  Each output head is  conv (hidden · Wo) + bo : the product of the hidden layer with the head's weights, the gather
  of its rows at the edges' source nodes, the scaling by the per-edge weight column, the scatter-add into a zero matrix
  at the edges' target nodes, the self term times dis², and the bias. The reference recomputes, for each of its three
  convolutions, the same arrays from the edge list (the degree normalisation dis, the per-edge weights, the source and
  target words, dis²): the later copies are the same operations of the same argument, so they ARE the first copy,
  and the heads are stated over the first copy alone. Read at entry (n, j), each head is the specification's `head`.
-/
import proofs.«105954_j32255204393505_2_alg».proof.Proof.ReferenceHidden

noncomputable section

open scoped BigOperators

namespace Cert.ReferenceIdeal.Spec

open Idealize.ShloMosaic Idealize.ShloMosaic.ValueIdx Cert.ReferenceIdeal Cert.ReferenceIdeal.Read Cert.GraphConv

/-! ## The shared chain: each later copy is the first copy -/

section Chain
variable {F : FTy → Type} [FloatOps F] (x1 : (⟨S2x800000, .i32⟩ : BufTy).Contents (Elt F))

/-- The degree normalisation of the second convolution is the first's. -/
theorem v56_eq : val_main_v56 (F := F) x1 = val_main_v11 (F := F) x1 := rfl
/-- The degree normalisation of the third convolution is the first's. -/
theorem v100_eq : val_main_v100 (F := F) x1 = val_main_v11 (F := F) x1 := rfl
/-- The target words of the second convolution are the first's. -/
theorem v83_eq : val_main_v83 (F := F) x1 = val_main_v38 (F := F) x1 := rfl
/-- The target words of the third convolution are the first's. -/
theorem v127_eq : val_main_v127 (F := F) x1 = val_main_v38 (F := F) x1 := rfl
/-- The source words of the second convolution are the first's. -/
theorem v77_eq : val_main_v77 (F := F) x1 = val_main_v32 (F := F) x1 := rfl
/-- The source words of the third convolution are the first's. -/
theorem v121_eq : val_main_v121 (F := F) x1 = val_main_v32 (F := F) x1 := rfl
/-- The per-edge weight column of the second convolution is the first's. -/
theorem v79_eq : val_main_v79 (F := F) x1 = val_main_v34 (F := F) x1 := rfl
/-- The per-edge weight column of the third convolution is the first's. -/
theorem v123_eq : val_main_v123 (F := F) x1 = val_main_v34 (F := F) x1 := rfl
/-- dis² of the second convolution is the first's. -/
theorem v85_eq : val_main_v85 (F := F) x1 = val_main_v40 (F := F) x1 := rfl
/-- dis² of the third convolution is the first's. -/
theorem v129_eq : val_main_v129 (F := F) x1 = val_main_v40 (F := F) x1 := rfl

end Chain

variable (x0 : (⟨S50000x256, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))

/-! ## The mu head -/

section mu
variable (x4 : (⟨S128x64, .f32⟩ : BufTy).Contents (Elt Ideal)) (x5 : (⟨S64, .f32⟩ : BufTy).Contents (Elt Ideal))

/-- The dis² column broadcast along the output axis reads row `n`. -/
theorem idx_dis2_mu (n : Fin 50000) (j : Fin 64) : idx_main_v86 (idx_main_v87 (ix2 n j)) = ix1 n :=
  funext fun a => by match a with | ⟨0, _⟩ => rfl

/-- The bias row broadcast along the node axis reads column `j`. -/
theorem idx_bias_mu (n : Fin 50000) (j : Fin 64) : idx_main_v90 (idx_main_v91 (ix2 n j)) = ix1 j :=
  funext fun a => by match a with | ⟨0, _⟩ => rfl

/-- The per-edge weight column broadcast along the output axis reads row `e`. -/
theorem idx_norm_mu (e : Fin 800000) (j : Fin 64) : idx_main_v80 (ix2 e j) = ix2 e (0 : Fin 1) :=
  funext fun a => by match a with | ⟨0, _⟩ => rfl | ⟨1, _⟩ => rfl

/-- `(hidden · Wo) (m, j) = Σₖ hidden (m, k) · Wo (k, j)`, the hidden layer read by the specification. -/
theorem hw_mu_at (m : Fin 50000) (j : Fin 64) :
    val_main_v49 (F := Ideal) x0 x1 x2 x3 x4 (ix2 m j)
      = ∑ k : Fin 128,
          hidden (Ideal.ofBits .f32 0x00000000#32) (Ideal.ofBits .f32 0x00000000#32)
            (val_main_v38 (F := Ideal) x1) (val_main_v32 (F := Ideal) x1) (val_main_v34 (F := Ideal) x1)
            (fun n' => val_main_v40 (F := Ideal) x1 (ix1 n'))
            (fun a b => x0 (ix2 a b)) (fun a b => x2 (ix2 a b)) (fun a => x3 (ix1 a)) m k
          * x4 (ix2 k j) := by
  rw [val_main_v49_apply]
  refine Finset.sum_congr rfl fun k _ => ?_
  have el : lidx_main_v49 (ix2 m j) k = ix2 m k :=
    funext fun a => by match a with | ⟨0, _⟩ => rfl | ⟨1, _⟩ => rfl
  have er : ridx_main_v49 (ix2 m j) k = ix2 k j :=
    funext fun a => by match a with | ⟨0, _⟩ => rfl | ⟨1, _⟩ => rfl
  rw [el, er, ref_hidden]

/-- The scatter-add of the gathered, scaled rows of hidden · Wo into the zero matrix, at entry `(n, j)`. -/
theorem agg_mu_at (n : Fin 50000) (j : Fin 64) :
    val_main_v84 (F := Ideal) x0 x1 x2 x3 x4 (ix2 n j)
      = Ideal.ofBits .f32 0x00000000#32
        + ∑ e ∈ landing (val_main_v38 (F := Ideal) x1) n,
            val_main_v49 (F := Ideal) x0 x1 x2 x3 x4 (ix2 (source (val_main_v32 (F := Ideal) x1) e) j)
              * val_main_v34 (F := Ideal) x1 (ix2 e (0 : Fin 1)) := by
  unfold val_main_v84 val_main_v81 val_main_v78
  rw [v83_eq, v77_eq]
  refine (aggregate_apply scatter_S50000x64_S800000x1_S800000x64_1_0_0_1 rfl rfl rfl rfl
    gather_S50000x64_S800000x1_S800000x64_1_0_n_n_0_1_164 rfl rfl rfl rfl rfl rfl rfl
    (val_main_v82 (F := Ideal)) (val_main_v38 (F := Ideal) x1) (val_main_v32 (F := Ideal) x1)
    (val_main_v49 (F := Ideal) x0 x1 x2 x3 x4) (val_main_v80 (F := Ideal) x1) (val_main_v34 (F := Ideal) x1) ?_ n j).trans ?_
  · intro e j'
    rw [val_main_v80_apply, idx_norm_mu, v79_eq]
  · rw [val_main_v82_apply] <;> rfl

/-- The self term at entry `(n, j)`: the product's entry times dis² of the node. -/
theorem self_mu_at (n : Fin 50000) (j : Fin 64) :
    val_main_v88 (F := Ideal) x0 x1 x2 x3 x4 (ix2 n j)
      = val_main_v49 (F := Ideal) x0 x1 x2 x3 x4 (ix2 n j) * val_main_v40 (F := Ideal) x1 (ix1 n) := by
  rw [val_main_v88_apply, Ideal.mulf_def, val_main_v87_apply, val_main_v86_apply, idx_dis2_mu, v85_eq]

/-- THE MU HEAD at entry `(n, j)` is the specification's `head`. -/
theorem ref_mu (n : Fin 50000) (j : Fin 64) :
    val_main_v92 (F := Ideal) x0 x1 x2 x3 x4 x5 (ix2 n j)
      = head (Ideal.ofBits .f32 0x00000000#32) (Ideal.ofBits .f32 0x00000000#32)
          (val_main_v38 (F := Ideal) x1) (val_main_v32 (F := Ideal) x1) (val_main_v34 (F := Ideal) x1)
          (fun n' => val_main_v40 (F := Ideal) x1 (ix1 n'))
          (fun a b => x0 (ix2 a b)) (fun a b => x2 (ix2 a b)) (fun a => x3 (ix1 a))
          (fun a b => x4 (ix2 a b)) (fun a => x5 (ix1 a)) n j := by
  rw [val_main_v92_apply, Ideal.addf_def, val_main_v91_apply, val_main_v90_apply, idx_bias_mu,
    val_main_v89_apply, Ideal.addf_def, agg_mu_at, self_mu_at]
  simp only [hw_mu_at]
  exact convCol_assoc (Ideal.ofBits .f32 0x00000000#32) (val_main_v38 (F := Ideal) x1) (val_main_v32 (F := Ideal) x1)
    (val_main_v34 (F := Ideal) x1) (fun n' => val_main_v40 (F := Ideal) x1 (ix1 n'))
    (fun n' => ∑ k : Fin 128,
      hidden (Ideal.ofBits .f32 0x00000000#32) (Ideal.ofBits .f32 0x00000000#32)
        (val_main_v38 (F := Ideal) x1) (val_main_v32 (F := Ideal) x1) (val_main_v34 (F := Ideal) x1)
        (fun n'' => val_main_v40 (F := Ideal) x1 (ix1 n''))
        (fun a b => x0 (ix2 a b)) (fun a b => x2 (ix2 a b)) (fun a => x3 (ix1 a)) n' k * x4 (ix2 k j))
    (x5 (ix1 j)) n

end mu

/-! ## The logstd head -/

section logstd
variable (x6 : (⟨S128x64, .f32⟩ : BufTy).Contents (Elt Ideal)) (x7 : (⟨S64, .f32⟩ : BufTy).Contents (Elt Ideal))

/-- The dis² column broadcast along the output axis reads row `n`. -/
theorem idx_dis2_logstd (n : Fin 50000) (j : Fin 64) : idx_main_v130 (idx_main_v131 (ix2 n j)) = ix1 n :=
  funext fun a => by match a with | ⟨0, _⟩ => rfl

/-- The bias row broadcast along the node axis reads column `j`. -/
theorem idx_bias_logstd (n : Fin 50000) (j : Fin 64) : idx_main_v134 (idx_main_v135 (ix2 n j)) = ix1 j :=
  funext fun a => by match a with | ⟨0, _⟩ => rfl

/-- The per-edge weight column broadcast along the output axis reads row `e`. -/
theorem idx_norm_logstd (e : Fin 800000) (j : Fin 64) : idx_main_v124 (ix2 e j) = ix2 e (0 : Fin 1) :=
  funext fun a => by match a with | ⟨0, _⟩ => rfl | ⟨1, _⟩ => rfl

/-- `(hidden · Wo) (m, j) = Σₖ hidden (m, k) · Wo (k, j)`, the hidden layer read by the specification. -/
theorem hw_logstd_at (m : Fin 50000) (j : Fin 64) :
    val_main_v93 (F := Ideal) x0 x1 x2 x3 x6 (ix2 m j)
      = ∑ k : Fin 128,
          hidden (Ideal.ofBits .f32 0x00000000#32) (Ideal.ofBits .f32 0x00000000#32)
            (val_main_v38 (F := Ideal) x1) (val_main_v32 (F := Ideal) x1) (val_main_v34 (F := Ideal) x1)
            (fun n' => val_main_v40 (F := Ideal) x1 (ix1 n'))
            (fun a b => x0 (ix2 a b)) (fun a b => x2 (ix2 a b)) (fun a => x3 (ix1 a)) m k
          * x6 (ix2 k j) := by
  rw [val_main_v93_apply]
  refine Finset.sum_congr rfl fun k _ => ?_
  have el : lidx_main_v93 (ix2 m j) k = ix2 m k :=
    funext fun a => by match a with | ⟨0, _⟩ => rfl | ⟨1, _⟩ => rfl
  have er : ridx_main_v93 (ix2 m j) k = ix2 k j :=
    funext fun a => by match a with | ⟨0, _⟩ => rfl | ⟨1, _⟩ => rfl
  rw [el, er, ref_hidden]

/-- The scatter-add of the gathered, scaled rows of hidden · Wo into the zero matrix, at entry `(n, j)`. -/
theorem agg_logstd_at (n : Fin 50000) (j : Fin 64) :
    val_main_v128 (F := Ideal) x0 x1 x2 x3 x6 (ix2 n j)
      = Ideal.ofBits .f32 0x00000000#32
        + ∑ e ∈ landing (val_main_v38 (F := Ideal) x1) n,
            val_main_v93 (F := Ideal) x0 x1 x2 x3 x6 (ix2 (source (val_main_v32 (F := Ideal) x1) e) j)
              * val_main_v34 (F := Ideal) x1 (ix2 e (0 : Fin 1)) := by
  unfold val_main_v128 val_main_v125 val_main_v122
  rw [v127_eq, v121_eq]
  refine (aggregate_apply scatter_S50000x64_S800000x1_S800000x64_1_0_0_1 rfl rfl rfl rfl
    gather_S50000x64_S800000x1_S800000x64_1_0_n_n_0_1_164 rfl rfl rfl rfl rfl rfl rfl
    (val_main_v126 (F := Ideal)) (val_main_v38 (F := Ideal) x1) (val_main_v32 (F := Ideal) x1)
    (val_main_v93 (F := Ideal) x0 x1 x2 x3 x6) (val_main_v124 (F := Ideal) x1) (val_main_v34 (F := Ideal) x1) ?_ n j).trans ?_
  · intro e j'
    rw [val_main_v124_apply, idx_norm_logstd, v123_eq]
  · rw [val_main_v126_apply] <;> rfl

/-- The self term at entry `(n, j)`: the product's entry times dis² of the node. -/
theorem self_logstd_at (n : Fin 50000) (j : Fin 64) :
    val_main_v132 (F := Ideal) x0 x1 x2 x3 x6 (ix2 n j)
      = val_main_v93 (F := Ideal) x0 x1 x2 x3 x6 (ix2 n j) * val_main_v40 (F := Ideal) x1 (ix1 n) := by
  rw [val_main_v132_apply, Ideal.mulf_def, val_main_v131_apply, val_main_v130_apply, idx_dis2_logstd, v129_eq]

/-- THE LOGSTD HEAD at entry `(n, j)` is the specification's `head`. -/
theorem ref_logstd (n : Fin 50000) (j : Fin 64) :
    val_main_v136 (F := Ideal) x0 x1 x2 x3 x6 x7 (ix2 n j)
      = head (Ideal.ofBits .f32 0x00000000#32) (Ideal.ofBits .f32 0x00000000#32)
          (val_main_v38 (F := Ideal) x1) (val_main_v32 (F := Ideal) x1) (val_main_v34 (F := Ideal) x1)
          (fun n' => val_main_v40 (F := Ideal) x1 (ix1 n'))
          (fun a b => x0 (ix2 a b)) (fun a b => x2 (ix2 a b)) (fun a => x3 (ix1 a))
          (fun a b => x6 (ix2 a b)) (fun a => x7 (ix1 a)) n j := by
  rw [val_main_v136_apply, Ideal.addf_def, val_main_v135_apply, val_main_v134_apply, idx_bias_logstd,
    val_main_v133_apply, Ideal.addf_def, agg_logstd_at, self_logstd_at]
  simp only [hw_logstd_at]
  exact convCol_assoc (Ideal.ofBits .f32 0x00000000#32) (val_main_v38 (F := Ideal) x1) (val_main_v32 (F := Ideal) x1)
    (val_main_v34 (F := Ideal) x1) (fun n' => val_main_v40 (F := Ideal) x1 (ix1 n'))
    (fun n' => ∑ k : Fin 128,
      hidden (Ideal.ofBits .f32 0x00000000#32) (Ideal.ofBits .f32 0x00000000#32)
        (val_main_v38 (F := Ideal) x1) (val_main_v32 (F := Ideal) x1) (val_main_v34 (F := Ideal) x1)
        (fun n'' => val_main_v40 (F := Ideal) x1 (ix1 n''))
        (fun a b => x0 (ix2 a b)) (fun a b => x2 (ix2 a b)) (fun a => x3 (ix1 a)) n' k * x6 (ix2 k j))
    (x7 (ix1 j)) n

end logstd

end Cert.ReferenceIdeal.Spec

end
-- ==== Proof.lean ====
/-
  The certificate of a two-layer graph convolution with two output heads: a kernel program whose two dense products
  run as tiled matrix regions (each also producing the self-loop term with the bias folded in) and whose neighbour
  aggregation stays on the host, against a reference that computes every layer as
  aggregate(h[row] · norm) + h · dis² + b with h the plain product.

  Over the extended reals the two programs are one function of the arguments. The degree normalisation (the source and
  target words of each edge, the per-edge weight, dis²) is the same chain of host operations of the edge array in both,
  and is never opened. A region's product is the plain sum of products — the narrowing of its operands to a shorter
  float format is the identity on exact values — so layer 1 differs only in where the bias is added:
  aggregate + (self + b) in the kernel program, (aggregate + self) + b in the reference, equal because addition of
  extended reals is associative. For layer 2 the kernel program multiplies the hidden layer by the two output weights
  laid side by side and cuts the result's columns in two, while the reference multiplies by each weight separately; a
  graph convolution acts on every column by itself, so column j of each half is the reference's column j.
  No step needs the inputs to be finite: the precondition is not used.

  The frames of the two kernel programs are the generated frame certificates; the reference's frame is its generated run
  with the results dropped; the idealization rewrote no operation, so `preserves` has nothing to state.
-/
import proofs.«105954_j32255204393505_2_alg».proof.Defs
import proofs.«105954_j32255204393505_2_alg».proof.Proof.Gen.Kernel
import proofs.«105954_j32255204393505_2_alg».proof.Proof.Gen.Kernel.Frame
import proofs.«105954_j32255204393505_2_alg».proof.Proof.Gen.KernelIdeal
import proofs.«105954_j32255204393505_2_alg».proof.Proof.Gen.KernelIdeal.Frame
import proofs.«105954_j32255204393505_2_alg».proof.Proof.Gen.ReferenceIdeal
import proofs.«105954_j32255204393505_2_alg».proof.Proof.Gen.Pre_finite_inputs
import proofs.«105954_j32255204393505_2_alg».proof.Proof.Gen.ReferenceIdeal.Run
import proofs.«105954_j32255204393505_2_alg».proof.Proof.Gen.ReferenceIdeal.Read
import proofs.«105954_j32255204393505_2_alg».proof.Proof.KernelRun
import proofs.«105954_j32255204393505_2_alg».proof.Proof.KernelValue
import proofs.«105954_j32255204393505_2_alg».proof.Proof.ReferenceSpec
import Idealize.ShloMosaic.Adequacy
import Idealize.ShloMosaic.Init

noncomputable section

namespace Cert.Proof

open Idealize.ShloMosaic Idealize.ShloMosaic.ValueIdx Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The two idealized programs, run from memories agreeing on the arguments, end with equal results: each of the
    kernel program's results and the reference's matching result are, entry by entry, the specification's output head
    of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W7 m ρ c (Proc.devRef .tc Cert.KernelIdeal.main_v64),
    fun c => Cert.KernelIdeal.Gen.W7 m ρ c (Proc.devRef .tc Cert.KernelIdeal.main_v65),
    Cert.KernelIdeal.Named.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v92_eq, (hagree c).1, (hagree c).2.1, (hagree c).2.2.1, (hagree c).2.2.2.1,
      (hagree c).2.2.2.2.1, (hagree c).2.2.2.2.2.1]
    funext i
    obtain ⟨n, j, rfl⟩ : ∃ (n : Fin 50000) (j : Fin 64), i = ix2 n j := ⟨i 0, i 1, eq_ix2 i⟩
    exact (Cert.ReferenceIdeal.Spec.ref_mu _ _ _ _ _ _ n j).trans (Cert.KernelIdeal.Conv.mu_at m ρ c n j).symm
  · rw [Cert.ReferenceIdeal.Read.val_main_v136_eq, (hagree c).1, (hagree c).2.1, (hagree c).2.2.1, (hagree c).2.2.2.1,
      (hagree c).2.2.2.2.2.2.1, (hagree c).2.2.2.2.2.2.2]
    funext i
    obtain ⟨n, j, rfl⟩ : ∃ (n : Fin 50000) (j : Fin 64), i = ix2 n j := ⟨i 0, i 1, eq_ix2 i⟩
    exact (Cert.ReferenceIdeal.Spec.ref_logstd _ _ _ _ _ _ n j).trans (Cert.KernelIdeal.Conv.logstd_at m ρ c n j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
